-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x150000 : Shape := ⟨2, ![2, 150000]⟩
abbrev S150000 : Shape := ⟨1, ![150000]⟩
abbrev S2x200000 : Shape := ⟨2, ![2, 200000]⟩
abbrev S512x512 : Shape := ⟨2, ![512, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S150000 : S_.BroadcastsInDim S150000 (![] : Fin 0 → Fin S150000.rank)
  reducesTo_S150000_S_d0 : S150000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S512x512 .f32) (main_arg7 : FVec F S512 .f32) (main_arg8 : FVec F S512x2 .f32) (main_arg9 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x2 .f32 := Host.absf main_arg8
  let main_cst_10 : FVec F S_ .f32 := constant S_ .f32 0x7F800000#32
  let main_v30 : FVec F S512x2 .f32 := broadcastInDim S512x2 ![] bcast_S_S512x2 main_cst_10
  let main_v31 : IVec S512x2 1 := cmpf .olt main_v29 main_v30
  let main_c_11 : IVec S_ 1 := constantI S_ 1 1#1
  let main_v32 : IVec S_ 1 := (fun x v => Host.reduce IntOp.andi x v reducesTo_S512x2_S_d0_1 h_S_) main_v31 main_c_11
  let main_v33 : IVec S_ 1 := andi main_v28 main_v32
  fn_part2 (F := F) main_arg9 main_v33

def fn {F : FTy → Type} [FloatOps F] (main_arg0 : FVec F S100000x512 .f32) (main_arg1 : IVec S2x150000 32) (main_arg2 : FVec F S150000 .f32) (main_arg3 : IVec S2x200000 32) (main_arg4 : FVec F S512x512 .f32) (main_arg5 : FVec F S512 .f32) (main_arg6 : FVec F S512x512 .f32) (main_arg7 : FVec F S512 .f32) (main_arg8 : FVec F S512x2 .f32) (main_arg9 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S150000 .f32 := Host.absf main_arg2
  let main_cst_0 : FVec F S_ .f32 := constant S_ .f32 0x7F800000#32
  let main_v5 : FVec F S150000 .f32 := broadcastInDim S150000 ![] bcast_S_S150000 main_cst_0
  let main_v6 : IVec S150000 1 := cmpf .olt main_v4 main_v5
  let main_c_1 : IVec S_ 1 := constantI S_ 1 1#1
  let main_v7 : IVec S_ 1 := (fun x v => Host.reduce IntOp.andi x v reducesTo_S150000_S_d0 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S100000x512 : Shape := ⟨2, ![100000, 512]⟩
abbrev S2x150000 : Shape := ⟨2, ![2, 150000]⟩
abbrev S150000 : Shape := ⟨1, ![150000]⟩
abbrev S2x200000 : Shape := ⟨2, ![2, 200000]⟩
abbrev S512x512 : Shape := ⟨2, ![512, 512]⟩
abbrev S512 : Shape := ⟨1, ![512]⟩
abbrev S512x2 : Shape := ⟨2, ![512, 2]⟩
abbrev S2 : Shape := ⟨1, ![2]⟩
abbrev S1x150000 : Shape := ⟨2, ![1, 150000]⟩
abbrev S2000x512 : Shape := ⟨2, ![2000, 512]⟩
abbrev S100000 : Shape := ⟨1, ![100000]⟩
abbrev S250000 : Shape := ⟨1, ![250000]⟩
abbrev S_ : Shape := ⟨0, ![]⟩
abbrev S250000x1 : Shape := ⟨2, ![250000, 1]⟩
abbrev S250000x512 : Shape := ⟨2, ![250000, 512]⟩
abbrev S1x512 : Shape := ⟨2, ![1, 512]⟩
abbrev S100000x1 : Shape := ⟨2, ![100000, 1]⟩
abbrev S100000x2 : Shape := ⟨2, ![100000, 2]⟩
abbrev S2000x2 : Shape := ⟨2, ![2000, 2]⟩
abbrev S250000x2 : Shape := ⟨2, ![250000, 2]⟩
abbrev S1x2 : Shape := ⟨2, ![1, 2]⟩
abbrev S1x200000 : Shape := ⟨2, ![1, 200000]⟩
abbrev S200000 : Shape := ⟨1, ![200000]⟩
abbrev S200000x1 : Shape := ⟨2, ![200000, 1]⟩
abbrev S200000x2 : Shape := ⟨2, ![200000, 2]⟩

abbrev nBuf : Space → Nat
  | .hbm => 270
  | .vmem => 15
  | .smem => 0
  | _ => 0

abbrev hbmTy0_0 (i : Nat) : BufTy := match i % 128 with
  | 0 => ⟨S100000x512, .f32⟩
  | 1 => ⟨S2x150000, .i32⟩
  | 2 => ⟨S150000, .f32⟩
  | 3 => ⟨S2x200000, .i32⟩
  | 4 => ⟨S512x512, .f32⟩
  | 5 => ⟨S512, .f32⟩
  | 6 => ⟨S512x512, .f32⟩
  | 7 => ⟨S512, .f32⟩
  | 8 => ⟨S512x2, .f32⟩
  | 9 => ⟨S2, .f32⟩
  | 10 => ⟨S1x150000, .i32⟩
  | 11 => ⟨S150000, .i32⟩
  | 12 => ⟨S1x150000, .i32⟩
  | 13 => ⟨S150000, .i32⟩
  | 14 => ⟨S100000x512, .f32⟩
  | 15 => ⟨S100000, .i32⟩
  | 16 => ⟨S250000, .i32⟩
  | 17 => ⟨S250000, .i32⟩
  | 18 => ⟨S_, .f32⟩
  | 19 => ⟨S100000, .f32⟩
  | 20 => ⟨S250000, .f32⟩
  | 21 => ⟨S_, .f32⟩
  | 22 => ⟨S100000, .f32⟩
  | 23 => ⟨S250000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000, .f32⟩
  | 45 => ⟨S250000, .f32⟩
  | 46 => ⟨S_, .i32⟩
  | 47 => ⟨S250000, .i32⟩
  | 48 => ⟨S250000, .i1⟩
  | 49 => ⟨S_, .i32⟩
  | 50 => ⟨S250000, .i32⟩
  | 51 => ⟨S250000, .i32⟩
  | 52 => ⟨S250000, .i32⟩
  | 53 => ⟨S250000x1, .i32⟩
  | 54 => ⟨S250000, .f32⟩
  | 55 => ⟨S250000, .f32⟩
  | 56 => ⟨S250000x1, .f32⟩
  | 57 => ⟨S_, .i32⟩
  | 58 => ⟨S250000, .i32⟩
  | 59 => ⟨S250000, .i1⟩
  | 60 => ⟨S_, .i32⟩
  | 61 => ⟨S250000, .i32⟩
  | 62 => ⟨S250000, .i32⟩
  | 63 => ⟨S250000, .i32⟩
  | 64 => ⟨S250000x1, .i32⟩
  | 65 => ⟨S250000x512, .f32⟩
  | 66 => ⟨S250000x512, .f32⟩
  | 67 => ⟨S250000x512, .f32⟩
  | 68 => ⟨S_, .f32⟩
  | 69 => ⟨S100000x512, .f32⟩
  | 70 => ⟨S250000x1, .i32⟩
  | 71 => ⟨S100000x512, .f32⟩
  | 72 => ⟨S1x512, .f32⟩
  | 73 => ⟨S100000x512, .f32⟩
  | 74 => ⟨S100000x512, .f32⟩
  | 75 => ⟨S_, .f32⟩
  | 76 => ⟨S100000x512, .f32⟩
  | 77 => ⟨S100000x512, .f32⟩
  | 78 => ⟨S100000x512, .f32⟩
  | 79 => ⟨S_, .f32⟩
  | 80 => ⟨S100000, .f32⟩
  | 81 => ⟨S100000x1, .f32⟩
  | 82 => ⟨S100000x1, .f32⟩
  | 83 => ⟨S_, .f32⟩
  | 84 => ⟨S100000x1, .f32⟩
  | 85 => ⟨S100000x1, .f32⟩
  | 86 => ⟨S100000x512, .f32⟩
  | 87 => ⟨S100000x512, .f32⟩
  | 88 => ⟨S100000x512, .f32⟩
  | 89 => ⟨S_, .f32⟩
  | 90 => ⟨S100000x512, .f32⟩
  | 91 => ⟨S100000x512, .f32⟩
  | 92 => ⟨S100000x512, .f32⟩
  | 93 => ⟨S100000, .i32⟩
  | 94 => ⟨S250000, .i32⟩
  | 95 => ⟨S250000, .i32⟩
  | 96 => ⟨S_, .f32⟩
  | 97 => ⟨S100000, .f32⟩
  | 98 => ⟨S250000, .f32⟩
  | 99 => ⟨S_, .f32⟩
  | 100 => ⟨S100000, .f32⟩
  | 101 => ⟨S250000x1, .i32⟩
  | 102 => ⟨S100000, .f32⟩
  | 103 => ⟨S_, .f32⟩
  | 104 => ⟨S100000, .f32⟩
  | 105 => ⟨S100000, .i1⟩
  | 106 => ⟨S_, .f32⟩
  | 107 => ⟨S100000, .f32⟩
  | 108 => ⟨S100000, .f32⟩
  | 109 => ⟨S100000, .f32⟩
  | 110 => ⟨S_, .f32⟩
  | 111 => ⟨S_, .f32⟩
  | 112 => ⟨S100000, .f32⟩
  | 113 => ⟨S100000, .f32⟩
  | 114 => ⟨S_, .i32⟩
  | 115 => ⟨S250000, .i32⟩
  | 116 => ⟨S250000, .i1⟩
  | 117 => ⟨S_, .i32⟩
  | 118 => ⟨S250000, .i32⟩
  | 119 => ⟨S250000, .i32⟩
  | 120 => ⟨S250000, .i32⟩
  | 121 => ⟨S250000x1, .i32⟩
  | 122 => ⟨S250000, .f32⟩
  | 123 => ⟨S250000, .f32⟩
  | 124 => ⟨S_, .i32⟩
  | 125 => ⟨S250000, .i32⟩
  | 126 => ⟨S250000, .i1⟩
  | 127 => ⟨S_, .i32⟩
  | _ => ⟨S100000x512, .f32⟩

abbrev hbmTy0_1 (i : Nat) : BufTy := match i % 128 with
  | 0 => ⟨S250000, .i32⟩
  | 1 => ⟨S250000, .i32⟩
  | 2 => ⟨S250000, .i32⟩
  | 3 => ⟨S250000x1, .i32⟩
  | 4 => ⟨S250000, .f32⟩
  | 5 => ⟨S250000, .f32⟩
  | 6 => ⟨S250000x1, .f32⟩
  | 7 => ⟨S_, .i32⟩
  | 8 => ⟨S250000, .i32⟩
  | 9 => ⟨S250000, .i1⟩
  | 10 => ⟨S_, .i32⟩
  | 11 => ⟨S250000, .i32⟩
  | 12 => ⟨S250000, .i32⟩
  | 13 => ⟨S250000, .i32⟩
  | 14 => ⟨S250000x1, .i32⟩
  | 15 => ⟨S250000x512, .f32⟩
  | 16 => ⟨S250000x512, .f32⟩
  | 17 => ⟨S250000x512, .f32⟩
  | 18 => ⟨S_, .f32⟩
  | 19 => ⟨S100000x512, .f32⟩
  | 20 => ⟨S250000x1, .i32⟩
  | 21 => ⟨S100000x512, .f32⟩
  | 22 => ⟨S1x512, .f32⟩
  | 23 => ⟨S100000x512, .f32⟩
  | 24 => ⟨S100000x512, .f32⟩
  | 25 => ⟨S_, .f32⟩
  | 26 => ⟨S100000x512, .f32⟩
  | 27 => ⟨S100000x512, .f32⟩
  | 28 => ⟨S100000x512, .f32⟩
  | 29 => ⟨S_, .f32⟩
  | 30 => ⟨S100000, .f32⟩
  | 31 => ⟨S100000x1, .f32⟩
  | 32 => ⟨S100000x1, .f32⟩
  | 33 => ⟨S_, .f32⟩
  | 34 => ⟨S100000x1, .f32⟩
  | 35 => ⟨S100000x1, .f32⟩
  | 36 => ⟨S100000x512, .f32⟩
  | 37 => ⟨S100000x512, .f32⟩
  | 38 => ⟨S100000x512, .f32⟩
  | 39 => ⟨S_, .f32⟩
  | 40 => ⟨S100000x512, .f32⟩
  | 41 => ⟨S100000x512, .f32⟩
  | 42 => ⟨S100000x2, .f32⟩
  | 43 => ⟨S100000, .i32⟩
  | 44 => ⟨S250000, .i32⟩
  | 45 => ⟨S250000, .i32⟩
  | 46 => ⟨S_, .f32⟩
  | 47 => ⟨S100000, .f32⟩
  | 48 => ⟨S250000, .f32⟩
  | 49 => ⟨S_, .f32⟩
  | 50 => ⟨S100000, .f32⟩
  | 51 => ⟨S250000x1, .i32⟩
  | 52 => ⟨S100000, .f32⟩
  | 53 => ⟨S_, .f32⟩
  | 54 => ⟨S100000, .f32⟩
  | 55 => ⟨S100000, .i1⟩
  | 56 => ⟨S_, .f32⟩
  | 57 => ⟨S100000, .f32⟩
  | 58 => ⟨S100000, .f32⟩
  | 59 => ⟨S100000, .f32⟩
  | 60 => ⟨S_, .f32⟩
  | 61 => ⟨S_, .f32⟩
  | 62 => ⟨S100000, .f32⟩
  | 63 => ⟨S100000, .f32⟩
  | 64 => ⟨S_, .i32⟩
  | 65 => ⟨S250000, .i32⟩
  | 66 => ⟨S250000, .i1⟩
  | 67 => ⟨S_, .i32⟩
  | 68 => ⟨S250000, .i32⟩
  | 69 => ⟨S250000, .i32⟩
  | 70 => ⟨S250000, .i32⟩
  | 71 => ⟨S250000x1, .i32⟩
  | 72 => ⟨S250000, .f32⟩
  | 73 => ⟨S250000, .f32⟩
  | 74 => ⟨S_, .i32⟩
  | 75 => ⟨S250000, .i32⟩
  | 76 => ⟨S250000, .i1⟩
  | 77 => ⟨S_, .i32⟩
  | 78 => ⟨S250000, .i32⟩
  | 79 => ⟨S250000, .i32⟩
  | 80 => ⟨S250000, .i32⟩
  | 81 => ⟨S250000x1, .i32⟩
  | 82 => ⟨S250000, .f32⟩
  | 83 => ⟨S250000, .f32⟩
  | 84 => ⟨S250000x1, .f32⟩
  | 85 => ⟨S_, .i32⟩
  | 86 => ⟨S250000, .i32⟩
  | 87 => ⟨S250000, .i1⟩
  | 88 => ⟨S_, .i32⟩
  | 89 => ⟨S250000, .i32⟩
  | 90 => ⟨S250000, .i32⟩
  | 91 => ⟨S250000, .i32⟩
  | 92 => ⟨S250000x1, .i32⟩
  | 93 => ⟨S250000x2, .f32⟩
  | 94 => ⟨S250000x2, .f32⟩
  | 95 => ⟨S250000x2, .f32⟩
  | 96 => ⟨S_, .f32⟩
  | 97 => ⟨S100000x2, .f32⟩
  | 98 => ⟨S250000x1, .i32⟩
  | 99 => ⟨S100000x2, .f32⟩
  | 100 => ⟨S1x2, .f32⟩
  | 101 => ⟨S100000x2, .f32⟩
  | 102 => ⟨S100000x2, .f32⟩
  | 103 => ⟨S_, .f32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x2, .f32⟩
  | 110 => ⟨S100000x2, .f32⟩
  | 111 => ⟨S100000x2, .f32⟩
  | 112 => ⟨S_, .f32⟩
  | 113 => ⟨S100000, .f32⟩
  | 114 => ⟨S100000x1, .f32⟩
  | 115 => ⟨S100000x1, .f32⟩
  | 116 => ⟨S100000x2, .f32⟩
  | 117 => ⟨S100000x2, .f32⟩
  | 118 => ⟨S1x200000, .i32⟩
  | 119 => ⟨S200000, .i32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S100000x512, .f32⟩

abbrev hbmTy0_2 (i : Nat) : BufTy := match i % 128 with
  | 0 => ⟨S200000x2, .f32⟩
  | 1 => ⟨S1x200000, .i32⟩
  | 2 => ⟨S200000, .i32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x2, .f32⟩
  | 12 => ⟨S200000x2, .f32⟩
  | 13 => ⟨S200000x2, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x2, .f32⟩
  | .local _ .vmem, ⟨13, _⟩ => ⟨S2000x2, .f32⟩
  | .local _ .vmem, ⟨14, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_call2_v0 : Ref sig .tc := ⟨.hbm, 78, rfl⟩
abbrev main_call2_cst : Ref sig .tc := ⟨.hbm, 79, rfl⟩
abbrev main_call2_v1 : Ref sig .tc := ⟨.hbm, 80, rfl⟩
abbrev main_call2_v2 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_call3_v0 : Ref sig .tc := ⟨.hbm, 111, rfl⟩
abbrev main_call3_v1 : Ref sig .tc := ⟨.hbm, 112, rfl⟩
abbrev main_v74 : Ref sig .tc := ⟨.hbm, 113, rfl⟩
abbrev main_c_17 : Ref sig .tc := ⟨.hbm, 114, rfl⟩
abbrev main_v75 : Ref sig .tc := ⟨.hbm, 115, rfl⟩
abbrev main_v76 : Ref sig .tc := ⟨.hbm, 116, rfl⟩
abbrev main_c_18 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_19 : Ref sig .tc := ⟨.hbm, 124, rfl⟩
abbrev main_v83 : Ref sig .tc := ⟨.hbm, 125, rfl⟩
abbrev main_v84 : Ref sig .tc := ⟨.hbm, 126, rfl⟩
abbrev main_c_20 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_21 : Ref sig .tc := ⟨.hbm, 135, rfl⟩
abbrev main_v92 : Ref sig .tc := ⟨.hbm, 136, rfl⟩
abbrev main_v93 : Ref sig .tc := ⟨.hbm, 137, rfl⟩
abbrev main_c_22 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_23 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_call4_cst : Ref sig .tc := ⟨.hbm, 153, rfl⟩
abbrev main_call4_v0 : Ref sig .tc := ⟨.hbm, 154, rfl⟩
abbrev main_v107 : Ref sig .tc := ⟨.hbm, 155, rfl⟩
abbrev main_call5_v0 : Ref sig .tc := ⟨.hbm, 156, rfl⟩
abbrev main_call5_cst : Ref sig .tc := ⟨.hbm, 157, rfl⟩
abbrev main_call5_v1 : Ref sig .tc := ⟨.hbm, 158, rfl⟩
abbrev main_call5_v2 : Ref sig .tc := ⟨.hbm, 159, rfl⟩
abbrev main_v108 : Ref sig .tc := ⟨.hbm, 160, rfl⟩
abbrev main_cst_24 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_25 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_26 : Ref sig .tc := ⟨.hbm, 174, rfl⟩
abbrev main_v120 : Ref sig .tc := ⟨.hbm, 175, rfl⟩
abbrev main_v121 : Ref sig .tc := ⟨.hbm, 176, rfl⟩
abbrev main_cst_27 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_28 : Ref sig .tc := ⟨.hbm, 181, rfl⟩
abbrev main_v125 : Ref sig .tc := ⟨.hbm, 182, rfl⟩
abbrev main_v126 : Ref sig .tc := ⟨.hbm, 183, rfl⟩
abbrev main_cst_29 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_30 : Ref sig .tc := ⟨.hbm, 188, rfl⟩
abbrev main_call6_v0 : Ref sig .tc := ⟨.hbm, 189, rfl⟩
abbrev main_call6_v1 : Ref sig .tc := ⟨.hbm, 190, rfl⟩
abbrev main_v130 : Ref sig .tc := ⟨.hbm, 191, rfl⟩
abbrev main_c_31 : Ref sig .tc := ⟨.hbm, 192, rfl⟩
abbrev main_v131 : Ref sig .tc := ⟨.hbm, 193, rfl⟩
abbrev main_v132 : Ref sig .tc := ⟨.hbm, 194, rfl⟩
abbrev main_c_32 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_c_33 : Ref sig .tc := ⟨.hbm, 202, rfl⟩
abbrev main_v139 : Ref sig .tc := ⟨.hbm, 203, rfl⟩
abbrev main_v140 : Ref sig .tc := ⟨.hbm, 204, rfl⟩
abbrev main_c_34 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_c_35 : Ref sig .tc := ⟨.hbm, 213, rfl⟩
abbrev main_v148 : Ref sig .tc := ⟨.hbm, 214, rfl⟩
abbrev main_v149 : Ref sig .tc := ⟨.hbm, 215, rfl⟩
abbrev main_c_36 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_cst_37 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_call7_cst : Ref sig .tc := ⟨.hbm, 231, rfl⟩
abbrev main_call7_v0 : Ref sig .tc := ⟨.hbm, 232, rfl⟩
abbrev main_call7_cst_0 : Ref sig .tc := ⟨.hbm, 233, rfl⟩
abbrev main_call7_v1 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_call7_v5 : Ref sig .tc := ⟨.hbm, 238, rfl⟩
abbrev main_call7_v6 : Ref sig .tc := ⟨.hbm, 239, rfl⟩
abbrev main_call7_cst_1 : Ref sig .tc := ⟨.hbm, 240, rfl⟩
abbrev main_call7_v7 : Ref sig .tc := ⟨.hbm, 241, rfl⟩
abbrev main_call7_v8 : Ref sig .tc := ⟨.hbm, 242, rfl⟩
abbrev main_call7_v9 : Ref sig .tc := ⟨.hbm, 243, rfl⟩
abbrev main_call7_v10 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_c_38 : Ref sig .tc := ⟨.hbm, 248, rfl⟩
abbrev main_v166 : Ref sig .tc := ⟨.hbm, 249, rfl⟩
abbrev main_v167 : Ref sig .tc := ⟨.hbm, 250, rfl⟩
abbrev main_c_39 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_c_40 : Ref sig .tc := ⟨.hbm, 259, rfl⟩
abbrev main_v175 : Ref sig .tc := ⟨.hbm, 260, rfl⟩
abbrev main_v176 : Ref sig .tc := ⟨.hbm, 261, rfl⟩
abbrev main_c_41 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  concatenates_S150000_S100000_S250000_d0 : Shape.Concatenates [S150000, S100000] S250000 0
  bcast_S_S100000 : S_.BroadcastsInDim S100000 (![] : Fin 0 → Fin S100000.rank)
  bcast_S250000_S250000x1_0 : S250000.BroadcastsInDim S250000x1 (![0] : Fin 1 → Fin S250000x1.rank)
  bcast_S_S250000 : S_.BroadcastsInDim S250000 (![] : Fin 0 → Fin S250000.rank)
  bcast_S250000x1_S250000x512_0_1 : S250000x1.BroadcastsInDim S250000x512 (![0, 1] : Fin 2 → Fin S250000x512.rank)
  bcast_S_S100000x512 : S_.BroadcastsInDim S100000x512 (![] : Fin 0 → Fin S100000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  shapeCasts_S2000x512_S2000x512 : S2000x512.ShapeCasts S2000x512
  inb_S512x2_S512x2_0_0 : ∀ a, (![0, 0] : Fin 2 → Nat) a + S512x2.size a ≤ S512x2.size a
  h_S512x2 : 0 < S512x2.numel
  inb_S2000x2_S2000x2_0_0 : ∀ a, (![0, 0] : Fin 2 → Nat) a + S2000x2.size a ≤ S2000x2.size a
  h_S2000x2 : 0 < S2000x2.numel
  bcast_S250000x1_S250000x2_0_1 : S250000x1.BroadcastsInDim S250000x2 (![0, 1] : Fin 2 → Fin S250000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  dot_S2000x512_S512x512_S2000x512_1_0_0_1_n_n_wf : DotDims.WF S2000x512 S512x512 S2000x512 [1] [0] [0] [1] [] []
  scatter_S100000_S250000x1_S250000_n_0_0_1_wf : ScatterDims.WF S100000 S250000x1 S250000 [] [0] [0] 1
  gather_S100000_S250000x1_S250000_n_0_n_n_0_1_1_wf : GatherDims.WF S100000 S250000x1 S250000 [] [0] [] [0] [] 1 ![1]
  gather_S100000x512_S250000x1_S250000x512_1_0_n_n_0_1_1512_wf : GatherDims.WF S100000x512 S250000x1 S250000x512 [1] [0] [] [0] [] 1 ![1, 512]
  scatter_S100000x512_S250000x1_S250000x512_1_0_0_1_wf : ScatterDims.WF S100000x512 S250000x1 S250000x512 [1] [0] [0] 1
  dot_S2000x512_S512x2_S2000x2_1_0_0_1_n_n_wf : DotDims.WF S2000x512 S512x2 S2000x2 [1] [0] [0] [1] [] []
  gather_S100000x2_S250000x1_S250000x2_1_0_n_n_0_1_12_wf : GatherDims.WF S100000x2 S250000x1 S250000x2 [1] [0] [] [0] [] 1 ![1, 2]
  scatter_S100000x2_S250000x1_S250000x2_1_0_0_1_wf : ScatterDims.WF S100000x2 S250000x1 S250000x2 [1] [0] [0] 1
  gather_S100000x2_S200000x1_S200000x2_1_0_n_n_0_1_12_wf : GatherDims.WF S100000x2 S200000x1 S200000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S100000x512.size a
  hwx0_2 : ∀ i : grid0.Coords, EltTy.bits .f32 = 32 ∨ (Rect.block (s := S100000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S100000x512.size a
  hwx1_2 : ∀ i : grid1.Coords, EltTy.bits .f32 = 32 ∨ (Rect.block (s := S100000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S100000x512.size a
  hwx2_0 : ∀ i : grid2.Coords, EltTy.bits .f32 = 32 ∨ (Rect.block (s := S100000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x2.size a ≤ S512x2.size a
  hwx2_1 : ∀ i : grid2.Coords, EltTy.bits .f32 = 32 ∨ (Rect.block (s := S512x2) S512x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S100000x2.size a
  hwx2_2 : ∀ i : grid2.Coords, EltTy.bits .f32 = 32 ∨ (Rect.block (s := S100000x2) S2000x2.size (cc2_transform_2 i) (hinb2_2 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S100000_S250000x1_S250000_n_0_0_1 : ScatterDims S100000 S250000x1 S250000 where
  updateWindowDims := []
  insertedWindowDims := [0]
  scatterDimsToOperandDims := [0]
  indexVectorDim := 1
  wf := scatter_S100000_S250000x1_S250000_n_0_0_1_wf
def gather_S100000_S250000x1_S250000_n_0_n_n_0_1_1 : GatherDims S100000 S250000x1 S250000 where
  offsetDims := []
  collapsedSliceDims := [0]
  operandBatchingDims := []
  startIndicesBatchingDims := []
  startIndexMap := [0]
  indexVectorDim := 1
  sliceSizes := ![1]
  wf := gather_S100000_S250000x1_S250000_n_0_n_n_0_1_1_wf
def gather_S100000x512_S250000x1_S250000x512_1_0_n_n_0_1_1512 : GatherDims S100000x512 S250000x1 S250000x512 where
  offsetDims := [1]
  collapsedSliceDims := [0]
  operandBatchingDims := []
  startIndicesBatchingDims := []
  startIndexMap := [0]
  indexVectorDim := 1
  sliceSizes := ![1, 512]
  wf := gather_S100000x512_S250000x1_S250000x512_1_0_n_n_0_1_1512_wf
def scatter_S100000x512_S250000x1_S250000x512_1_0_0_1 : ScatterDims S100000x512 S250000x1 S250000x512 where
  updateWindowDims := [1]
  insertedWindowDims := [0]
  scatterDimsToOperandDims := [0]
  indexVectorDim := 1
  wf := scatter_S100000x512_S250000x1_S250000x512_1_0_0_1_wf
def dot_S2000x512_S512x2_S2000x2_1_0_0_1_n_n : DotDims S2000x512 S512x2 S2000x2 where
  lhsContracting := [1]
  rhsContracting := [0]
  lhsNonContracting := [0]
  rhsNonContracting := [1]
  lhsBatch := []
  rhsBatch := []
  wf := dot_S2000x512_S512x2_S2000x2_1_0_0_1_n_n_wf
def gather_S100000x2_S250000x1_S250000x2_1_0_n_n_0_1_12 : GatherDims S100000x2 S250000x1 S250000x2 where
  offsetDims := [1]
  collapsedSliceDims := [0]
  operandBatchingDims := []
  startIndicesBatchingDims := []
  startIndexMap := [0]
  indexVectorDim := 1
  sliceSizes := ![1, 2]
  wf := gather_S100000x2_S250000x1_S250000x2_1_0_n_n_0_1_12_wf
def scatter_S100000x2_S250000x1_S250000x2_1_0_0_1 : ScatterDims S100000x2 S250000x1 S250000x2 where
  updateWindowDims := [1]
  insertedWindowDims := [0]
  scatterDimsToOperandDims := [0]
  indexVectorDim := 1
  wf := scatter_S100000x2_S250000x1_S250000x2_1_0_0_1_wf
def gather_S100000x2_S200000x1_S200000x2_1_0_n_n_0_1_12 : GatherDims S100000x2 S200000x1 S200000x2 where
  offsetDims := [1]
  collapsedSliceDims := [0]
  operandBatchingDims := []
  startIndicesBatchingDims := []
  startIndexMap := [0]
  indexVectorDim := 1
  sliceSizes := ![1, 2]
  wf := gather_S100000x2_S200000x1_S200000x2_1_0_n_n_0_1_12_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v115) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S512x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v116) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x150000 : Shape := ⟨2, ![2, 150000]⟩
abbrev S150000 : Shape := ⟨1, ![150000]⟩
abbrev S2x200000 : Shape := ⟨2, ![2, 200000]⟩
abbrev S512x512 : Shape := ⟨2, ![512, 512]⟩
abbrev S512 : Shape := ⟨1, ![512]⟩
abbrev S512x2 : Shape := ⟨2, ![512, 2]⟩
abbrev S2 : Shape := ⟨1, ![2]⟩
abbrev S1x150000 : Shape := ⟨2, ![1, 150000]⟩
abbrev S100000 : Shape := ⟨1, ![100000]⟩
abbrev S250000 : Shape := ⟨1, ![250000]⟩
abbrev S_ : Shape := ⟨0, ![]⟩
abbrev S250000x1 : Shape := ⟨2, ![250000, 1]⟩
abbrev S250000x512 : Shape := ⟨2, ![250000, 512]⟩
abbrev S1x512 : Shape := ⟨2, ![1, 512]⟩
abbrev S100000x1 : Shape := ⟨2, ![100000, 1]⟩
abbrev S100000x2 : Shape := ⟨2, ![100000, 2]⟩
abbrev S250000x2 : Shape := ⟨2, ![250000, 2]⟩
abbrev S1x2 : Shape := ⟨2, ![1, 2]⟩
abbrev S1x200000 : Shape := ⟨2, ![1, 200000]⟩
abbrev S200000 : Shape := ⟨1, ![200000]⟩
abbrev S200000x1 : Shape := ⟨2, ![200000, 1]⟩
abbrev S200000x2 : Shape := ⟨2, ![200000, 2]⟩

abbrev nBuf : Space → Nat
  | .hbm => 270
  | .vmem => 0
  | .smem => 0
  | _ => 0

abbrev hbmTy0_0 (i : Nat) : BufTy := match i % 128 with
  | 0 => ⟨S100000x512, .f32⟩
  | 1 => ⟨S2x150000, .i32⟩
  | 2 => ⟨S150000, .f32⟩
  | 3 => ⟨S2x200000, .i32⟩
  | 4 => ⟨S512x512, .f32⟩
  | 5 => ⟨S512, .f32⟩
  | 6 => ⟨S512x512, .f32⟩
  | 7 => ⟨S512, .f32⟩
  | 8 => ⟨S512x2, .f32⟩
  | 9 => ⟨S2, .f32⟩
  | 10 => ⟨S1x150000, .i32⟩
  | 11 => ⟨S150000, .i32⟩
  | 12 => ⟨S1x150000, .i32⟩
  | 13 => ⟨S150000, .i32⟩
  | 14 => ⟨S100000, .i32⟩
  | 15 => ⟨S250000, .i32⟩
  | 16 => ⟨S250000, .i32⟩
  | 17 => ⟨S_, .f32⟩
  | 18 => ⟨S100000, .f32⟩
  | 19 => ⟨S250000, .f32⟩
  | 20 => ⟨S_, .f32⟩
  | 21 => ⟨S100000, .f32⟩
  | 22 => ⟨S250000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S250000, .i32⟩
  | 37 => ⟨S250000, .i1⟩
  | 38 => ⟨S_, .i32⟩
  | 39 => ⟨S250000, .i32⟩
  | 40 => ⟨S250000, .i32⟩
  | 41 => ⟨S250000, .i32⟩
  | 42 => ⟨S250000x1, .i32⟩
  | 43 => ⟨S250000, .f32⟩
  | 44 => ⟨S250000, .f32⟩
  | 45 => ⟨S_, .i32⟩
  | 46 => ⟨S250000, .i32⟩
  | 47 => ⟨S250000, .i1⟩
  | 48 => ⟨S_, .i32⟩
  | 49 => ⟨S250000, .i32⟩
  | 50 => ⟨S250000, .i32⟩
  | 51 => ⟨S250000, .i32⟩
  | 52 => ⟨S250000x1, .i32⟩
  | 53 => ⟨S250000, .f32⟩
  | 54 => ⟨S250000, .f32⟩
  | 55 => ⟨S100000x512, .f32⟩
  | 56 => ⟨S250000x1, .f32⟩
  | 57 => ⟨S_, .i32⟩
  | 58 => ⟨S250000, .i32⟩
  | 59 => ⟨S250000, .i1⟩
  | 60 => ⟨S_, .i32⟩
  | 61 => ⟨S250000, .i32⟩
  | 62 => ⟨S250000, .i32⟩
  | 63 => ⟨S250000, .i32⟩
  | 64 => ⟨S250000x1, .i32⟩
  | 65 => ⟨S250000x512, .f32⟩
  | 66 => ⟨S250000x512, .f32⟩
  | 67 => ⟨S250000x512, .f32⟩
  | 68 => ⟨S_, .f32⟩
  | 69 => ⟨S100000x512, .f32⟩
  | 70 => ⟨S250000x1, .i32⟩
  | 71 => ⟨S100000x512, .f32⟩
  | 72 => ⟨S1x512, .f32⟩
  | 73 => ⟨S100000x512, .f32⟩
  | 74 => ⟨S100000x512, .f32⟩
  | 75 => ⟨S_, .f32⟩
  | 76 => ⟨S100000x512, .f32⟩
  | 77 => ⟨S100000x512, .f32⟩
  | 78 => ⟨S100000x512, .f32⟩
  | 79 => ⟨S_, .f32⟩
  | 80 => ⟨S100000, .f32⟩
  | 81 => ⟨S100000x1, .f32⟩
  | 82 => ⟨S100000x1, .f32⟩
  | 83 => ⟨S_, .f32⟩
  | 84 => ⟨S100000x1, .f32⟩
  | 85 => ⟨S100000x1, .f32⟩
  | 86 => ⟨S100000x512, .f32⟩
  | 87 => ⟨S100000x512, .f32⟩
  | 88 => ⟨S100000x512, .f32⟩
  | 89 => ⟨S_, .f32⟩
  | 90 => ⟨S100000x512, .f32⟩
  | 91 => ⟨S100000x512, .f32⟩
  | 92 => ⟨S100000, .i32⟩
  | 93 => ⟨S250000, .i32⟩
  | 94 => ⟨S250000, .i32⟩
  | 95 => ⟨S_, .f32⟩
  | 96 => ⟨S100000, .f32⟩
  | 97 => ⟨S250000, .f32⟩
  | 98 => ⟨S_, .f32⟩
  | 99 => ⟨S100000, .f32⟩
  | 100 => ⟨S250000x1, .i32⟩
  | 101 => ⟨S100000, .f32⟩
  | 102 => ⟨S_, .f32⟩
  | 103 => ⟨S100000, .f32⟩
  | 104 => ⟨S100000, .i1⟩
  | 105 => ⟨S_, .f32⟩
  | 106 => ⟨S100000, .f32⟩
  | 107 => ⟨S100000, .f32⟩
  | 108 => ⟨S100000, .f32⟩
  | 109 => ⟨S_, .f32⟩
  | 110 => ⟨S_, .f32⟩
  | 111 => ⟨S100000, .f32⟩
  | 112 => ⟨S100000, .f32⟩
  | 113 => ⟨S_, .i32⟩
  | 114 => ⟨S250000, .i32⟩
  | 115 => ⟨S250000, .i1⟩
  | 116 => ⟨S_, .i32⟩
  | 117 => ⟨S250000, .i32⟩
  | 118 => ⟨S250000, .i32⟩
  | 119 => ⟨S250000, .i32⟩
  | 120 => ⟨S250000x1, .i32⟩
  | 121 => ⟨S250000, .f32⟩
  | 122 => ⟨S250000, .f32⟩
  | 123 => ⟨S_, .i32⟩
  | 124 => ⟨S250000, .i32⟩
  | 125 => ⟨S250000, .i1⟩
  | 126 => ⟨S_, .i32⟩
  | 127 => ⟨S250000, .i32⟩
  | _ => ⟨S100000x512, .f32⟩

abbrev hbmTy0_1 (i : Nat) : BufTy := match i % 128 with
  | 0 => ⟨S250000, .i32⟩
  | 1 => ⟨S250000, .i32⟩
  | 2 => ⟨S250000x1, .i32⟩
  | 3 => ⟨S250000, .f32⟩
  | 4 => ⟨S250000, .f32⟩
  | 5 => ⟨S100000x512, .f32⟩
  | 6 => ⟨S250000x1, .f32⟩
  | 7 => ⟨S_, .i32⟩
  | 8 => ⟨S250000, .i32⟩
  | 9 => ⟨S250000, .i1⟩
  | 10 => ⟨S_, .i32⟩
  | 11 => ⟨S250000, .i32⟩
  | 12 => ⟨S250000, .i32⟩
  | 13 => ⟨S250000, .i32⟩
  | 14 => ⟨S250000x1, .i32⟩
  | 15 => ⟨S250000x512, .f32⟩
  | 16 => ⟨S250000x512, .f32⟩
  | 17 => ⟨S250000x512, .f32⟩
  | 18 => ⟨S_, .f32⟩
  | 19 => ⟨S100000x512, .f32⟩
  | 20 => ⟨S250000x1, .i32⟩
  | 21 => ⟨S100000x512, .f32⟩
  | 22 => ⟨S1x512, .f32⟩
  | 23 => ⟨S100000x512, .f32⟩
  | 24 => ⟨S100000x512, .f32⟩
  | 25 => ⟨S_, .f32⟩
  | 26 => ⟨S100000x512, .f32⟩
  | 27 => ⟨S100000x512, .f32⟩
  | 28 => ⟨S100000x512, .f32⟩
  | 29 => ⟨S_, .f32⟩
  | 30 => ⟨S100000, .f32⟩
  | 31 => ⟨S100000x1, .f32⟩
  | 32 => ⟨S100000x1, .f32⟩
  | 33 => ⟨S_, .f32⟩
  | 34 => ⟨S100000x1, .f32⟩
  | 35 => ⟨S100000x1, .f32⟩
  | 36 => ⟨S100000x512, .f32⟩
  | 37 => ⟨S100000x512, .f32⟩
  | 38 => ⟨S100000x512, .f32⟩
  | 39 => ⟨S_, .f32⟩
  | 40 => ⟨S100000x512, .f32⟩
  | 41 => ⟨S100000x512, .f32⟩
  | 42 => ⟨S100000, .i32⟩
  | 43 => ⟨S250000, .i32⟩
  | 44 => ⟨S250000, .i32⟩
  | 45 => ⟨S_, .f32⟩
  | 46 => ⟨S100000, .f32⟩
  | 47 => ⟨S250000, .f32⟩
  | 48 => ⟨S_, .f32⟩
  | 49 => ⟨S100000, .f32⟩
  | 50 => ⟨S250000x1, .i32⟩
  | 51 => ⟨S100000, .f32⟩
  | 52 => ⟨S_, .f32⟩
  | 53 => ⟨S100000, .f32⟩
  | 54 => ⟨S100000, .i1⟩
  | 55 => ⟨S_, .f32⟩
  | 56 => ⟨S100000, .f32⟩
  | 57 => ⟨S100000, .f32⟩
  | 58 => ⟨S100000, .f32⟩
  | 59 => ⟨S_, .f32⟩
  | 60 => ⟨S_, .f32⟩
  | 61 => ⟨S100000, .f32⟩
  | 62 => ⟨S100000, .f32⟩
  | 63 => ⟨S_, .i32⟩
  | 64 => ⟨S250000, .i32⟩
  | 65 => ⟨S250000, .i1⟩
  | 66 => ⟨S_, .i32⟩
  | 67 => ⟨S250000, .i32⟩
  | 68 => ⟨S250000, .i32⟩
  | 69 => ⟨S250000, .i32⟩
  | 70 => ⟨S250000x1, .i32⟩
  | 71 => ⟨S250000, .f32⟩
  | 72 => ⟨S250000, .f32⟩
  | 73 => ⟨S_, .i32⟩
  | 74 => ⟨S250000, .i32⟩
  | 75 => ⟨S250000, .i1⟩
  | 76 => ⟨S_, .i32⟩
  | 77 => ⟨S250000, .i32⟩
  | 78 => ⟨S250000, .i32⟩
  | 79 => ⟨S250000, .i32⟩
  | 80 => ⟨S250000x1, .i32⟩
  | 81 => ⟨S250000, .f32⟩
  | 82 => ⟨S250000, .f32⟩
  | 83 => ⟨S100000x2, .f32⟩
  | 84 => ⟨S250000x1, .f32⟩
  | 85 => ⟨S_, .i32⟩
  | 86 => ⟨S250000, .i32⟩
  | 87 => ⟨S250000, .i1⟩
  | 88 => ⟨S_, .i32⟩
  | 89 => ⟨S250000, .i32⟩
  | 90 => ⟨S250000, .i32⟩
  | 91 => ⟨S250000, .i32⟩
  | 92 => ⟨S250000x1, .i32⟩
  | 93 => ⟨S250000x2, .f32⟩
  | 94 => ⟨S250000x2, .f32⟩
  | 95 => ⟨S250000x2, .f32⟩
  | 96 => ⟨S_, .f32⟩
  | 97 => ⟨S100000x2, .f32⟩
  | 98 => ⟨S250000x1, .i32⟩
  | 99 => ⟨S100000x2, .f32⟩
  | 100 => ⟨S1x2, .f32⟩
  | 101 => ⟨S100000x2, .f32⟩
  | 102 => ⟨S100000x2, .f32⟩
  | 103 => ⟨S_, .f32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x2, .f32⟩
  | 110 => ⟨S100000x2, .f32⟩
  | 111 => ⟨S100000x2, .f32⟩
  | 112 => ⟨S_, .f32⟩
  | 113 => ⟨S100000, .f32⟩
  | 114 => ⟨S100000x1, .f32⟩
  | 115 => ⟨S100000x1, .f32⟩
  | 116 => ⟨S100000x2, .f32⟩
  | 117 => ⟨S100000x2, .f32⟩
  | 118 => ⟨S1x200000, .i32⟩
  | 119 => ⟨S200000, .i32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S100000x512, .f32⟩

abbrev hbmTy0_2 (i : Nat) : BufTy := match i % 128 with
  | 0 => ⟨S200000x2, .f32⟩
  | 1 => ⟨S1x200000, .i32⟩
  | 2 => ⟨S200000, .i32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S200000x2, .f32⟩
  | 12 => ⟨S200000x2, .f32⟩
  | 13 => ⟨S200000x2, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_call2_v0 : Ref sig .tc := ⟨.hbm, 78, rfl⟩
abbrev main_call2_cst : Ref sig .tc := ⟨.hbm, 79, rfl⟩
abbrev main_call2_v1 : Ref sig .tc := ⟨.hbm, 80, rfl⟩
abbrev main_call2_v2 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_16 : Ref sig .tc := ⟨.hbm, 109, rfl⟩
abbrev main_call3_v0 : Ref sig .tc := ⟨.hbm, 110, rfl⟩
abbrev main_call3_v1 : Ref sig .tc := ⟨.hbm, 111, rfl⟩
abbrev main_v73 : Ref sig .tc := ⟨.hbm, 112, rfl⟩
abbrev main_c_17 : Ref sig .tc := ⟨.hbm, 113, rfl⟩
abbrev main_v74 : Ref sig .tc := ⟨.hbm, 114, rfl⟩
abbrev main_v75 : Ref sig .tc := ⟨.hbm, 115, rfl⟩
abbrev main_c_18 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_19 : Ref sig .tc := ⟨.hbm, 123, rfl⟩
abbrev main_v82 : Ref sig .tc := ⟨.hbm, 124, rfl⟩
abbrev main_v83 : Ref sig .tc := ⟨.hbm, 125, rfl⟩
abbrev main_c_20 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_21 : Ref sig .tc := ⟨.hbm, 135, rfl⟩
abbrev main_v92 : Ref sig .tc := ⟨.hbm, 136, rfl⟩
abbrev main_v93 : Ref sig .tc := ⟨.hbm, 137, rfl⟩
abbrev main_c_22 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_23 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_call4_cst : Ref sig .tc := ⟨.hbm, 153, rfl⟩
abbrev main_call4_v0 : Ref sig .tc := ⟨.hbm, 154, rfl⟩
abbrev main_v107 : Ref sig .tc := ⟨.hbm, 155, rfl⟩
abbrev main_call5_v0 : Ref sig .tc := ⟨.hbm, 156, rfl⟩
abbrev main_call5_cst : Ref sig .tc := ⟨.hbm, 157, rfl⟩
abbrev main_call5_v1 : Ref sig .tc := ⟨.hbm, 158, rfl⟩
abbrev main_call5_v2 : Ref sig .tc := ⟨.hbm, 159, rfl⟩
abbrev main_v108 : Ref sig .tc := ⟨.hbm, 160, rfl⟩
abbrev main_cst_24 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_25 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_26 : Ref sig .tc := ⟨.hbm, 173, rfl⟩
abbrev main_v119 : Ref sig .tc := ⟨.hbm, 174, rfl⟩
abbrev main_v120 : Ref sig .tc := ⟨.hbm, 175, rfl⟩
abbrev main_cst_27 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_28 : Ref sig .tc := ⟨.hbm, 180, rfl⟩
abbrev main_v124 : Ref sig .tc := ⟨.hbm, 181, rfl⟩
abbrev main_v125 : Ref sig .tc := ⟨.hbm, 182, rfl⟩
abbrev main_cst_29 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_30 : Ref sig .tc := ⟨.hbm, 187, rfl⟩
abbrev main_call6_v0 : Ref sig .tc := ⟨.hbm, 188, rfl⟩
abbrev main_call6_v1 : Ref sig .tc := ⟨.hbm, 189, rfl⟩
abbrev main_v129 : Ref sig .tc := ⟨.hbm, 190, rfl⟩
abbrev main_c_31 : Ref sig .tc := ⟨.hbm, 191, rfl⟩
abbrev main_v130 : Ref sig .tc := ⟨.hbm, 192, rfl⟩
abbrev main_v131 : Ref sig .tc := ⟨.hbm, 193, rfl⟩
abbrev main_c_32 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_c_33 : Ref sig .tc := ⟨.hbm, 201, rfl⟩
abbrev main_v138 : Ref sig .tc := ⟨.hbm, 202, rfl⟩
abbrev main_v139 : Ref sig .tc := ⟨.hbm, 203, rfl⟩
abbrev main_c_34 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_c_35 : Ref sig .tc := ⟨.hbm, 213, rfl⟩
abbrev main_v148 : Ref sig .tc := ⟨.hbm, 214, rfl⟩
abbrev main_v149 : Ref sig .tc := ⟨.hbm, 215, rfl⟩
abbrev main_c_36 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_cst_37 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_call7_cst : Ref sig .tc := ⟨.hbm, 231, rfl⟩
abbrev main_call7_v0 : Ref sig .tc := ⟨.hbm, 232, rfl⟩
abbrev main_call7_cst_0 : Ref sig .tc := ⟨.hbm, 233, rfl⟩
abbrev main_call7_v1 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_call7_v5 : Ref sig .tc := ⟨.hbm, 238, rfl⟩
abbrev main_call7_v6 : Ref sig .tc := ⟨.hbm, 239, rfl⟩
abbrev main_call7_cst_1 : Ref sig .tc := ⟨.hbm, 240, rfl⟩
abbrev main_call7_v7 : Ref sig .tc := ⟨.hbm, 241, rfl⟩
abbrev main_call7_v8 : Ref sig .tc := ⟨.hbm, 242, rfl⟩
abbrev main_call7_v9 : Ref sig .tc := ⟨.hbm, 243, rfl⟩
abbrev main_call7_v10 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_c_38 : Ref sig .tc := ⟨.hbm, 248, rfl⟩
abbrev main_v166 : Ref sig .tc := ⟨.hbm, 249, rfl⟩
abbrev main_v167 : Ref sig .tc := ⟨.hbm, 250, rfl⟩
abbrev main_c_39 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_c_40 : Ref sig .tc := ⟨.hbm, 259, rfl⟩
abbrev main_v175 : Ref sig .tc := ⟨.hbm, 260, rfl⟩
abbrev main_v176 : Ref sig .tc := ⟨.hbm, 261, rfl⟩
abbrev main_c_41 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  concatenates_S150000_S100000_S250000_d0 : Shape.Concatenates [S150000, S100000] S250000 0
  bcast_S_S100000 : S_.BroadcastsInDim S100000 (![] : Fin 0 → Fin S100000.rank)
  bcast_S250000_S250000x1_0 : S250000.BroadcastsInDim S250000x1 (![0] : Fin 1 → Fin S250000x1.rank)
  bcast_S_S250000 : S_.BroadcastsInDim S250000 (![] : Fin 0 → Fin S250000.rank)
  bcast_S250000x1_S250000x512_0_1 : S250000x1.BroadcastsInDim S250000x512 (![0, 1] : Fin 2 → Fin S250000x512.rank)
  bcast_S_S100000x512 : S_.BroadcastsInDim S100000x512 (![] : Fin 0 → Fin S100000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S250000x1_S250000x2_0_1 : S250000x1.BroadcastsInDim S250000x2 (![0, 1] : Fin 2 → Fin S250000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  scatter_S100000_S250000x1_S250000_n_0_0_1_wf : ScatterDims.WF S100000 S250000x1 S250000 [] [0] [0] 1
  gather_S100000_S250000x1_S250000_n_0_n_n_0_1_1_wf : GatherDims.WF S100000 S250000x1 S250000 [] [0] [] [0] [] 1 ![1]
  dot_S100000x512_S512x512_S100000x512_1_0_0_1_n_n_wf : DotDims.WF S100000x512 S512x512 S100000x512 [1] [0] [0] [1] [] []
  gather_S100000x512_S250000x1_S250000x512_1_0_n_n_0_1_1512_wf : GatherDims.WF S100000x512 S250000x1 S250000x512 [1] [0] [] [0] [] 1 ![1, 512]
  scatter_S100000x512_S250000x1_S250000x512_1_0_0_1_wf : ScatterDims.WF S100000x512 S250000x1 S250000x512 [1] [0] [0] 1
  dot_S100000x512_S512x2_S100000x2_1_0_0_1_n_n_wf : DotDims.WF S100000x512 S512x2 S100000x2 [1] [0] [0] [1] [] []
  gather_S100000x2_S250000x1_S250000x2_1_0_n_n_0_1_12_wf : GatherDims.WF S100000x2 S250000x1 S250000x2 [1] [0] [] [0] [] 1 ![1, 2]
  scatter_S100000x2_S250000x1_S250000x2_1_0_0_1_wf : ScatterDims.WF S100000x2 S250000x1 S250000x2 [1] [0] [0] 1
  gather_S100000x2_S200000x1_S200000x2_1_0_n_n_0_1_12_wf : GatherDims.WF S100000x2 S200000x1 S200000x2 [1] [0] [] [0] [] 1 ![1, 2]

variable [Facts₀]

def scatter_S100000_S250000x1_S250000_n_0_0_1 : ScatterDims S100000 S250000x1 S250000 where
  updateWindowDims := []
  insertedWindowDims := [0]
  scatterDimsToOperandDims := [0]
  indexVectorDim := 1
  wf := scatter_S100000_S250000x1_S250000_n_0_0_1_wf
def gather_S100000_S250000x1_S250000_n_0_n_n_0_1_1 : GatherDims S100000 S250000x1 S250000 where
  offsetDims := []
  collapsedSliceDims := [0]
  operandBatchingDims := []
  startIndicesBatchingDims := []
  startIndexMap := [0]
  indexVectorDim := 1
  sliceSizes := ![1]
  wf := gather_S100000_S250000x1_S250000_n_0_n_n_0_1_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def gather_S100000x512_S250000x1_S250000x512_1_0_n_n_0_1_1512 : GatherDims S100000x512 S250000x1 S250000x512 where
  offsetDims := [1]
  collapsedSliceDims := [0]
  operandBatchingDims := []
  startIndicesBatchingDims := []
  startIndexMap := [0]
  indexVectorDim := 1
  sliceSizes := ![1, 512]
  wf := gather_S100000x512_S250000x1_S250000x512_1_0_n_n_0_1_1512_wf
def scatter_S100000x512_S250000x1_S250000x512_1_0_0_1 : ScatterDims S100000x512 S250000x1 S250000x512 where
  updateWindowDims := [1]
  insertedWindowDims := [0]
  scatterDimsToOperandDims := [0]
  indexVectorDim := 1
  wf := scatter_S100000x512_S250000x1_S250000x512_1_0_0_1_wf
def dot_S100000x512_S512x2_S100000x2_1_0_0_1_n_n : DotDims S100000x512 S512x2 S100000x2 where
  lhsContracting := [1]
  rhsContracting := [0]
  lhsNonContracting := [0]
  rhsNonContracting := [1]
  lhsBatch := []
  rhsBatch := []
  wf := dot_S100000x512_S512x2_S100000x2_1_0_0_1_n_n_wf
def gather_S100000x2_S250000x1_S250000x2_1_0_n_n_0_1_12 : GatherDims S100000x2 S250000x1 S250000x2 where
  offsetDims := [1]
  collapsedSliceDims := [0]
  operandBatchingDims := []
  startIndicesBatchingDims := []
  startIndexMap := [0]
  indexVectorDim := 1
  sliceSizes := ![1, 2]
  wf := gather_S100000x2_S250000x1_S250000x2_1_0_n_n_0_1_12_wf
def scatter_S100000x2_S250000x1_S250000x2_1_0_0_1 : ScatterDims S100000x2 S250000x1 S250000x2 where
  updateWindowDims := [1]
  insertedWindowDims := [0]
  scatterDimsToOperandDims := [0]
  indexVectorDim := 1
  wf := scatter_S100000x2_S250000x1_S250000x2_1_0_0_1_wf
def gather_S100000x2_S200000x1_S200000x2_1_0_n_n_0_1_12 : GatherDims S100000x2 S200000x1 S200000x2 where
  offsetDims := [1]
  collapsedSliceDims := [0]
  operandBatchingDims := []
  startIndicesBatchingDims := []
  startIndexMap := [0]
  indexVectorDim := 1
  sliceSizes := ![1, 2]
  wf := gather_S100000x2_S200000x1_S200000x2_1_0_n_n_0_1_12_wf

class Facts : Prop extends Facts₀ where

variable [Facts]
-- ==== Proof.KernelRun.lean ====
/-
  The kernel program's run, with its result named.

  @main is 21 segments: stretches of host operations and three matmul regions. The contents of every buffer at
  each segment boundary are a fold from the launch memory (`W0 … W21`): a stretch applies its operations, a
  region replaces its output array by what its write-backs leave. Launching the segments shows that every
  weakly fair execution terminates with every unscoped buffer at the last boundary's contents; read at the
  result buffer this says the result is `W21 … main_v183`, and read at the arguments that they are unchanged.
-/
import proofs.«161216_j58317065945288_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v183) = W21 m ρ c (Proc.devRef .tc main_v183)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v183 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c)⟩)

end Cert.KernelIdeal.Result

end
-- ==== Proof.MatmulAt.lean ====
/-
  The three matmul bodies, read at an index.

  Every kernel of this program is one matmul of a row block by a whole weight matrix: the body casts both
  operands to bf16 (the identity on the extended reals), multiplies them into a zero accumulator, and stores
  the product. Read at row `p` and column `q` the stored block is therefore the plain sum
  `∑ k, x (p, k) * w (k, q)` over the 512 contracted positions. The sum over the dot's own contraction
  index type is moved to `Fin 512` by the one-axis bijection, and the dot's operand indices are computed
  coordinate by coordinate.
-/
import proofs.«161216_j58317065945288_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.MatmulAt

open Cert.KernelIdeal Cert.KernelIdeal.Gen Idealize.ShloMosaic Idealize.ShloMosaic.ValueIdx

/-! The dot's operand indices, coordinate by coordinate: the output's row, the contracted position, the output's column. -/

theorem wide_lhs_row (i : S2000x512.Idx) (q : dot_S2000x512_S512x512_S2000x512_1_0_0_1_n_n.contr.Idx) : (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl
theorem wide_lhs_contr (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem wide_rhs_contr (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem wide_rhs_col (i : S2000x512.Idx) (q : dot_S2000x512_S512x512_S2000x512_1_0_0_1_n_n.contr.Idx) : (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

/-- The product of a 2000-row block by a 512×512 matrix into a zero accumulator, at row `p` and column `q`. -/
theorem dot512_at (x : FVec Ideal S2000x512 .f32) (w : FVec Ideal S512x512 .f32) (p : Fin 2000) (q : Fin 512) :
    FloatOps.matmul dot_S2000x512_S512x512_S2000x512_1_0_0_1_n_n none x w (constant S2000x512 .f32 0x00000000#32) (ix2 p q)
      = ∑ k : Fin 512, x (ix2 p k) * w (ix2 k q) := by
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k :=
    funext fun a => Fin.ext (by
      match a with
      | ⟨0, _⟩ => exact wide_lhs_row _ _
      | ⟨1, _⟩ => exact (wide_lhs_contr _ _).trans hk)
  have er : dot_S2000x512_S512x512_S2000x512_1_0_0_1_n_n.rhsIdx (ix2 p q) ((contrEquiv1 dot_S2000x512_S512x512_S2000x512_1_0_0_1_n_n 512 rfl rfl).symm k) = ix2 k q :=
    funext fun a => Fin.ext (by
      match a with
      | ⟨0, _⟩ => exact (wide_rhs_contr _ _).trans hk
      | ⟨1, _⟩ => exact wide_rhs_col _ _)
  rw [el, er]

theorem narrow_lhs_row (i : S2000x2.Idx) (q : dot_S2000x512_S512x2_S2000x2_1_0_0_1_n_n.contr.Idx) : (dot_S2000x512_S512x2_S2000x2_1_0_0_1_n_n.lhsIdx i q 0).val = (i 0).val := by
  unfold DotDims.lhsIdx
  rw [dif_neg (show ¬(0 : Fin S2000x512.rank) ∈ dot_S2000x512_S512x2_S2000x2_1_0_0_1_n_n.lhsBatch by decide),
    dif_pos (show (0 : Fin S2000x512.rank) ∈ dot_S2000x512_S512x2_S2000x2_1_0_0_1_n_n.lhsNonContracting by decide)]
  rfl
theorem narrow_lhs_contr (i : S2000x2.Idx) (q : dot_S2000x512_S512x2_S2000x2_1_0_0_1_n_n.contr.Idx) :
    (dot_S2000x512_S512x2_S2000x2_1_0_0_1_n_n.lhsIdx i q 1).val = (q ⟨0, by decide⟩).val :=
  dot_S2000x512_S512x2_S2000x2_1_0_0_1_n_n.lhsIdx_val_of_single rfl i q
theorem narrow_rhs_contr (i : S2000x2.Idx) (q : dot_S2000x512_S512x2_S2000x2_1_0_0_1_n_n.contr.Idx) :
    (dot_S2000x512_S512x2_S2000x2_1_0_0_1_n_n.rhsIdx i q 0).val = (q ⟨0, by decide⟩).val :=
  dot_S2000x512_S512x2_S2000x2_1_0_0_1_n_n.rhsIdx_val_of_single rfl i q
theorem narrow_rhs_col (i : S2000x2.Idx) (q : dot_S2000x512_S512x2_S2000x2_1_0_0_1_n_n.contr.Idx) : (dot_S2000x512_S512x2_S2000x2_1_0_0_1_n_n.rhsIdx i q 1).val = (i 1).val := by
  unfold DotDims.rhsIdx
  rw [dif_neg (show ¬(1 : Fin S512x2.rank) ∈ dot_S2000x512_S512x2_S2000x2_1_0_0_1_n_n.rhsBatch by decide),
    dif_pos (show (1 : Fin S512x2.rank) ∈ dot_S2000x512_S512x2_S2000x2_1_0_0_1_n_n.rhsNonContracting by decide)]
  rfl

/-- The product of a 2000-row block by a 512×2 matrix into a zero accumulator, at row `p` and column `q`. -/
theorem dot2_at (x : FVec Ideal S2000x512 .f32) (w : FVec Ideal S512x2 .f32) (p : Fin 2000) (q : Fin 2) :
    FloatOps.matmul dot_S2000x512_S512x2_S2000x2_1_0_0_1_n_n none x w (constant S2000x2 .f32 0x00000000#32) (ix2 p q)
      = ∑ k : Fin 512, x (ix2 p k) * w (ix2 k q) := by
  rw [Ideal.matmul_constant_zero_apply, ← Equiv.sum_comp (contrEquiv1 dot_S2000x512_S512x2_S2000x2_1_0_0_1_n_n 512 rfl rfl).symm]
  refine Finset.sum_congr rfl fun k _ => ?_
  have hk := contrEquiv1_symm_val dot_S2000x512_S512x2_S2000x2_1_0_0_1_n_n 512 rfl rfl k
  have el : dot_S2000x512_S512x2_S2000x2_1_0_0_1_n_n.lhsIdx (ix2 p q) ((contrEquiv1 dot_S2000x512_S512x2_S2000x2_1_0_0_1_n_n 512 rfl rfl).symm k) = ix2 p k :=
    funext fun a => Fin.ext (by
      match a with
      | ⟨0, _⟩ => exact narrow_lhs_row _ _
      | ⟨1, _⟩ => exact (narrow_lhs_contr _ _).trans hk)
  have er : dot_S2000x512_S512x2_S2000x2_1_0_0_1_n_n.rhsIdx (ix2 p q) ((contrEquiv1 dot_S2000x512_S512x2_S2000x2_1_0_0_1_n_n 512 rfl rfl).symm k) = ix2 k q :=
    funext fun a => Fin.ext (by
      match a with
      | ⟨0, _⟩ => exact (narrow_rhs_contr _ _).trans hk
      | ⟨1, _⟩ => exact narrow_rhs_col _ _)
  rw [el, er]

/-- Region 0's stored block: the casts to bf16 are the identity, so it is the product of the loaded blocks. -/
theorem pay0_at (x : Vec Ideal S2000x512 .f32) (w : Vec Ideal S512x512 .f32) (p : Fin 2000) (q : Fin 512) :
    k0_pay1 (F := Ideal) x w (ix2 p q) = ∑ k : Fin 512, x (ix2 p k) * w (ix2 k q) :=
  dot512_at x w p q

/-- Region 1's stored block: a cast to the same shape and the casts to bf16 are the identity. -/
theorem pay1_at (x : Vec Ideal S2000x512 .f32) (w : Vec Ideal S512x512 .f32) (p : Fin 2000) (q : Fin 512) :
    k1_pay1 (F := Ideal) x w (ix2 p q) = ∑ k : Fin 512, x (ix2 p k) * w (ix2 k q) := by
  unfold k1_pay1
  rw [shapeCast_self]
  exact dot512_at x w p q

/-- Region 2's stored block, two columns wide. -/
theorem pay2_at (x : Vec Ideal S2000x512 .f32) (w : Vec Ideal S512x2 .f32) (p : Fin 2000) (q : Fin 2) :
    k2_pay1 (F := Ideal) x w (ix2 p q) = ∑ k : Fin 512, x (ix2 p k) * w (ix2 k q) := by
  unfold k2_pay1
  rw [shapeCast_self]
  exact dot2_at x w p q

end Cert.KernelIdeal.MatmulAt

end
-- ==== Proof.Region0.lean ====
/-
  Region 0 writes a product of the whole arrays.

  The grid has 50 points. Point `t` fetches rows `2000 t … 2000 t + 1999` of the left array and the whole
  right matrix, and writes rows `2000 t … 2000 t + 1999` of the output. What it writes at row `p` and column
  `q` of its block is `∑ k, left (2000 t + p, k) * right (k, q)`: the block of one whole-array function,
  `rowsTimes`. The 50 row blocks tile the 100000 rows (row `r` lies in block `r / 2000`), so after the
  region the output array is that function of the arrays the region found, whatever they were.
-/
import proofs.«161216_j58317065945288_1_alg».proof.Proof.Gen.KernelIdeal.Frame
import proofs.«161216_j58317065945288_1_alg».proof.Proof.MatmulAt

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Rows of `x` times the matrix `w`, entry by entry. -/
def rowsTimes (x : Vec Ideal S100000x512 .f32) (w : Vec Ideal S512x512 .f32) : Vec Ideal S100000x512 .f32 :=
  fun i => ∑ k : Fin 512, x (ix2 (i 0) k) * w (ix2 k (i 1))

theorem zero_origin : (![0, 0] : Fin 2 → Nat) = fun _ => 0 := funext fun a => by fin_cases a <;> rfl

/-- The index maps over the grid: the left operand and the output move one row block per point, the right
    operand stays. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the arrays as the region found them. -/
theorem written_block (c : Dev nD) (t : Fin cfg0.N) :
    (dat0 V c).flushed 2 t
      = ((cfg0.win 2).blk t).view.read (Elt Ideal) (rowsTimes (V c main_arg0) (V c main_arg4)) := by
  show (cfg0.win 2).cut (grid0.coords t) ((dat0 V c).after 2 t) = _
  rw [after0_2]
  unfold out0_2
  rw [View.canon_unit_zero zero_origin]
  simp only [View.ld_unit_zero (S := S2000x512) zero_origin, View.ld_unit_zero (S := S512x512) zero_origin]
  obtain ⟨e0, e1, e2, e3, e4, e5⟩ := block_indices t
  funext j
  have hj0 : (j 0).val < 2000 := (j 0).isLt
  have hj1 : (j 1).val < 512 := (j 1).isLt
  have hj : j = ix2 (⟨(j 0).val, hj0⟩ : Fin 2000) (⟨(j 1).val, hj1⟩ : Fin 512) := by
    funext a; match a with | ⟨0, _⟩ => rfl | ⟨1, _⟩ => rfl
  show k0_pay1 (iblk0 V c 0 t) (iblk0 V c 1 t) j
      = rowsTimes (V c main_arg0) (V c main_arg4) (((cfg0.win 2).blk t).view.emb j)
  rw [hj]
  refine (MatmulAt.pay0_at (iblk0 V c 0 t) (iblk0 V c 1 t) ⟨(j 0).val, hj0⟩ ⟨(j 1).val, hj1⟩).trans ?_
  unfold rowsTimes
  refine Finset.sum_congr rfl fun k _ => ?_
  have hx : iblk0 V c 0 t (ix2 (⟨(j 0).val, hj0⟩ : Fin 2000) k)
      = V c main_arg0 (ix2 ((((cfg0.win 2).blk t).view.emb
          (ix2 (⟨(j 0).val, hj0⟩ : Fin 2000) (⟨(j 1).val, hj1⟩ : Fin 512))) 0) k) := by
    show V c main_arg0 (((cfg0.win 0).blk t).view.emb (ix2 (⟨(j 0).val, hj0⟩ : Fin 2000) k)) = _
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * k.val = k.val
      omega
  have hw : iblk0 V c 1 t (ix2 k (⟨(j 1).val, hj1⟩ : Fin 512))
      = V c main_arg4 (ix2 k ((((cfg0.win 2).blk t).view.emb
          (ix2 (⟨(j 0).val, hj0⟩ : Fin 2000) (⟨(j 1).val, hj1⟩ : Fin 512))) 1)) := by
    show V c main_arg4 (((cfg0.win 1).blk t).view.emb (ix2 k (⟨(j 1).val, hj1⟩ : Fin 512))) = _
    refine congrArg (V c main_arg4) (funext fun a => Fin.ext ?_)
    match a with
    | ⟨0, _⟩ =>
      show win0_1.index t (0 : Fin 2) * 512 + 1 * k.val = k.val
      omega
    | ⟨1, _⟩ =>
      show win0_1.index t (1 : Fin 2) * 512 + 1 * (j 1).val = win0_2.index t (1 : Fin 2) * 512 + 1 * (j 1).val
      omega
  rw [hx, hw]

/-- An index of the output array lies in point `t`'s block iff each coordinate lies in the block's range. -/
theorem mem_block (t : Fin cfg0.N) (i : S100000x512.Idx) :
    i ∈ ((cfg0.win 2).blk t).view.set
      ↔ ∀ a : Fin 2, win0_2.index t a * S2000x512.size a ≤ (i a).val
          ∧ (i a).val < win0_2.index t a * S2000x512.size a + S2000x512.size a := by
  show i ∈ ((View.whole main_v4).slice (win0_2.rect t)).set ↔ _
  rw [View.set_slice_whole, Rect.mem_set_unit]
  exact Iff.rfl

/-- Every entry of the output array is written: row `r` by point `r / 2000`. -/
theorem every_entry_written (i : S100000x512.Idx) :
    ∃ t : Fin cfg0.N, (cfg0.win 2).flush t = true ∧ i ∈ ((cfg0.win 2).blk t).view.set := by
  have hi0 : (i 0).val < 100000 := (i 0).isLt
  have hi1 : (i 1).val < 512 := (i 1).isLt
  have hN : grid0.N = 50 := N_0
  let t : Fin cfg0.N := ⟨(i 0).val / 2000, by show (i 0).val / 2000 < grid0.N; omega⟩
  obtain ⟨e0, e1, e2, e3, e4, e5⟩ := block_indices t
  have ht : t.val = (i 0).val / 2000 := rfl
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 512 ≤ (i 1).val ∧ (i 1).val < win0_2.index t (1 : Fin 2) * 512 + 512
    omega

/-- After the region the output array is the product of the two arrays the region found. -/
theorem product (c : Dev nD) :
    (dat0 V c).arrAt 2 cfg0.N = rowsTimes (V c main_arg0) (V c main_arg4) :=
  (dat0 V c).arrAt_eq_of_cover 2 _ (fun t _ => written_block V c t) every_entry_written

end Cert.KernelIdeal.Region0

end
-- ==== Proof.Region1.lean ====
/-
  Region 1 writes a product of the whole arrays.

  The grid has 50 points. Point `t` fetches rows `2000 t … 2000 t + 1999` of the left array and the whole
  right matrix, and writes rows `2000 t … 2000 t + 1999` of the output. What it writes at row `p` and column
  `q` of its block is `∑ k, left (2000 t + p, k) * right (k, q)`: the block of one whole-array function,
  `rowsTimes`. The 50 row blocks tile the 100000 rows (row `r` lies in block `r / 2000`), so after the
  region the output array is that function of the arrays the region found, whatever they were.
-/
import proofs.«161216_j58317065945288_1_alg».proof.Proof.Gen.KernelIdeal.Frame
import proofs.«161216_j58317065945288_1_alg».proof.Proof.MatmulAt

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Rows of `x` times the matrix `w`, entry by entry. -/
def rowsTimes (x : Vec Ideal S100000x512 .f32) (w : Vec Ideal S512x512 .f32) : Vec Ideal S100000x512 .f32 :=
  fun i => ∑ k : Fin 512, x (ix2 (i 0) k) * w (ix2 k (i 1))

theorem zero_origin : (![0, 0] : Fin 2 → Nat) = fun _ => 0 := funext fun a => by fin_cases a <;> rfl

/-- The index maps over the grid: the left operand and the output move one row block per point, the right
    operand stays. -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the product of the arrays as the region found them. -/
theorem written_block (c : Dev nD) (t : Fin cfg1.N) :
    (dat1 V c).flushed 2 t
      = ((cfg1.win 2).blk t).view.read (Elt Ideal) (rowsTimes (V c main_v59) (V c main_arg6)) := by
  show (cfg1.win 2).cut (grid1.coords t) ((dat1 V c).after 2 t) = _
  rw [after1_2]
  unfold out1_2
  rw [View.canon_unit_zero zero_origin]
  simp only [View.ld_unit_zero (S := S2000x512) zero_origin, View.ld_unit_zero (S := S512x512) zero_origin]
  obtain ⟨e0, e1, e2, e3, e4, e5⟩ := block_indices t
  funext j
  have hj0 : (j 0).val < 2000 := (j 0).isLt
  have hj1 : (j 1).val < 512 := (j 1).isLt
  have hj : j = ix2 (⟨(j 0).val, hj0⟩ : Fin 2000) (⟨(j 1).val, hj1⟩ : Fin 512) := by
    funext a; match a with | ⟨0, _⟩ => rfl | ⟨1, _⟩ => rfl
  show k1_pay1 (iblk1 V c 0 t) (iblk1 V c 1 t) j
      = rowsTimes (V c main_v59) (V c main_arg6) (((cfg1.win 2).blk t).view.emb j)
  rw [hj]
  refine (MatmulAt.pay1_at (iblk1 V c 0 t) (iblk1 V c 1 t) ⟨(j 0).val, hj0⟩ ⟨(j 1).val, hj1⟩).trans ?_
  unfold rowsTimes
  refine Finset.sum_congr rfl fun k _ => ?_
  have hx : iblk1 V c 0 t (ix2 (⟨(j 0).val, hj0⟩ : Fin 2000) k)
      = V c main_v59 (ix2 ((((cfg1.win 2).blk t).view.emb
          (ix2 (⟨(j 0).val, hj0⟩ : Fin 2000) (⟨(j 1).val, hj1⟩ : Fin 512))) 0) k) := by
    show V c main_v59 (((cfg1.win 0).blk t).view.emb (ix2 (⟨(j 0).val, hj0⟩ : Fin 2000) k)) = _
    refine congrArg (V c main_v59) (funext fun a => Fin.ext ?_)
    match a with
    | ⟨0, _⟩ =>
      show win1_0.index t (0 : Fin 2) * 2000 + 1 * (j 0).val = win1_2.index t (0 : Fin 2) * 2000 + 1 * (j 0).val
      omega
    | ⟨1, _⟩ =>
      show win1_0.index t (1 : Fin 2) * 512 + 1 * k.val = k.val
      omega
  have hw : iblk1 V c 1 t (ix2 k (⟨(j 1).val, hj1⟩ : Fin 512))
      = V c main_arg6 (ix2 k ((((cfg1.win 2).blk t).view.emb
          (ix2 (⟨(j 0).val, hj0⟩ : Fin 2000) (⟨(j 1).val, hj1⟩ : Fin 512))) 1)) := by
    show V c main_arg6 (((cfg1.win 1).blk t).view.emb (ix2 k (⟨(j 1).val, hj1⟩ : Fin 512))) = _
    refine congrArg (V c main_arg6) (funext fun a => Fin.ext ?_)
    match a with
    | ⟨0, _⟩ =>
      show win1_1.index t (0 : Fin 2) * 512 + 1 * k.val = k.val
      omega
    | ⟨1, _⟩ =>
      show win1_1.index t (1 : Fin 2) * 512 + 1 * (j 1).val = win1_2.index t (1 : Fin 2) * 512 + 1 * (j 1).val
      omega
  rw [hx, hw]

/-- An index of the output array lies in point `t`'s block iff each coordinate lies in the block's range. -/
theorem mem_block (t : Fin cfg1.N) (i : S100000x512.Idx) :
    i ∈ ((cfg1.win 2).blk t).view.set
      ↔ ∀ a : Fin 2, win1_2.index t a * S2000x512.size a ≤ (i a).val
          ∧ (i a).val < win1_2.index t a * S2000x512.size a + S2000x512.size a := by
  show i ∈ ((View.whole main_v60).slice (win1_2.rect t)).set ↔ _
  rw [View.set_slice_whole, Rect.mem_set_unit]
  exact Iff.rfl

/-- Every entry of the output array is written: row `r` by point `r / 2000`. -/
theorem every_entry_written (i : S100000x512.Idx) :
    ∃ t : Fin cfg1.N, (cfg1.win 2).flush t = true ∧ i ∈ ((cfg1.win 2).blk t).view.set := by
  have hi0 : (i 0).val < 100000 := (i 0).isLt
  have hi1 : (i 1).val < 512 := (i 1).isLt
  have hN : grid1.N = 50 := N_1
  let t : Fin cfg1.N := ⟨(i 0).val / 2000, by show (i 0).val / 2000 < grid1.N; omega⟩
  obtain ⟨e0, e1, e2, e3, e4, e5⟩ := block_indices t
  have ht : t.val = (i 0).val / 2000 := rfl
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 512 ≤ (i 1).val ∧ (i 1).val < win1_2.index t (1 : Fin 2) * 512 + 512
    omega

/-- After the region the output array is the product of the two arrays the region found. -/
theorem product (c : Dev nD) :
    (dat1 V c).arrAt 2 cfg1.N = rowsTimes (V c main_v59) (V c main_arg6) :=
  (dat1 V c).arrAt_eq_of_cover 2 _ (fun t _ => written_block V c t) every_entry_written

end Cert.KernelIdeal.Region1

end
-- ==== Proof.Region2.lean ====
/-
  Region 2 writes a product of the whole arrays.

  The grid has 50 points. Point `t` fetches rows `2000 t … 2000 t + 1999` of the left array and the whole
  right matrix, and writes rows `2000 t … 2000 t + 1999` of the output. What it writes at row `p` and column
  `q` of its block is `∑ k, left (2000 t + p, k) * right (k, q)`: the block of one whole-array function,
  `rowsTimes`. The 50 row blocks tile the 100000 rows (row `r` lies in block `r / 2000`), so after the
  region the output array is that function of the arrays the region found, whatever they were.
-/
import proofs.«161216_j58317065945288_1_alg».proof.Proof.Gen.KernelIdeal.Frame
import proofs.«161216_j58317065945288_1_alg».proof.Proof.MatmulAt

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Rows of `x` times the matrix `w`, entry by entry. -/
def rowsTimes (x : Vec Ideal S100000x512 .f32) (w : Vec Ideal S512x2 .f32) : Vec Ideal S100000x2 .f32 :=
  fun i => ∑ k : Fin 512, x (ix2 (i 0) k) * w (ix2 k (i 1))

theorem zero_origin : (![0, 0] : Fin 2 → Nat) = fun _ => 0 := funext fun a => by fin_cases a <;> rfl

/-- The index maps over the grid: the left operand and the output move one row block per point, the right
    operand stays. -/
theorem block_indices : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the product of the arrays as the region found them. -/
theorem written_block (c : Dev nD) (t : Fin cfg2.N) :
    (dat2 V c).flushed 2 t
      = ((cfg2.win 2).blk t).view.read (Elt Ideal) (rowsTimes (V c main_v115) (V c main_arg8)) := by
  show (cfg2.win 2).cut (grid2.coords t) ((dat2 V c).after 2 t) = _
  rw [after2_2]
  unfold out2_2
  rw [View.canon_unit_zero zero_origin]
  simp only [View.ld_unit_zero (S := S2000x512) zero_origin, View.ld_unit_zero (S := S512x2) zero_origin]
  obtain ⟨e0, e1, e2, e3, e4, e5⟩ := block_indices t
  funext j
  have hj0 : (j 0).val < 2000 := (j 0).isLt
  have hj1 : (j 1).val < 2 := (j 1).isLt
  have hj : j = ix2 (⟨(j 0).val, hj0⟩ : Fin 2000) (⟨(j 1).val, hj1⟩ : Fin 2) := by
    funext a; match a with | ⟨0, _⟩ => rfl | ⟨1, _⟩ => rfl
  show k2_pay1 (iblk2 V c 0 t) (iblk2 V c 1 t) j
      = rowsTimes (V c main_v115) (V c main_arg8) (((cfg2.win 2).blk t).view.emb j)
  rw [hj]
  refine (MatmulAt.pay2_at (iblk2 V c 0 t) (iblk2 V c 1 t) ⟨(j 0).val, hj0⟩ ⟨(j 1).val, hj1⟩).trans ?_
  unfold rowsTimes
  refine Finset.sum_congr rfl fun k _ => ?_
  have hx : iblk2 V c 0 t (ix2 (⟨(j 0).val, hj0⟩ : Fin 2000) k)
      = V c main_v115 (ix2 ((((cfg2.win 2).blk t).view.emb
          (ix2 (⟨(j 0).val, hj0⟩ : Fin 2000) (⟨(j 1).val, hj1⟩ : Fin 2))) 0) k) := by
    show V c main_v115 (((cfg2.win 0).blk t).view.emb (ix2 (⟨(j 0).val, hj0⟩ : Fin 2000) k)) = _
    refine congrArg (V c main_v115) (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 512 + 1 * k.val = k.val
      omega
  have hw : iblk2 V c 1 t (ix2 k (⟨(j 1).val, hj1⟩ : Fin 2))
      = V c main_arg8 (ix2 k ((((cfg2.win 2).blk t).view.emb
          (ix2 (⟨(j 0).val, hj0⟩ : Fin 2000) (⟨(j 1).val, hj1⟩ : Fin 2))) 1)) := by
    show V c main_arg8 (((cfg2.win 1).blk t).view.emb (ix2 k (⟨(j 1).val, hj1⟩ : Fin 2))) = _
    refine congrArg (V c main_arg8) (funext fun a => Fin.ext ?_)
    match a with
    | ⟨0, _⟩ =>
      show win2_1.index t (0 : Fin 2) * 512 + 1 * k.val = k.val
      omega
    | ⟨1, _⟩ =>
      show win2_1.index t (1 : Fin 2) * 2 + 1 * (j 1).val = win2_2.index t (1 : Fin 2) * 2 + 1 * (j 1).val
      omega
  rw [hx, hw]

/-- An index of the output array lies in point `t`'s block iff each coordinate lies in the block's range. -/
theorem mem_block (t : Fin cfg2.N) (i : S100000x2.Idx) :
    i ∈ ((cfg2.win 2).blk t).view.set
      ↔ ∀ a : Fin 2, win2_2.index t a * S2000x2.size a ≤ (i a).val
          ∧ (i a).val < win2_2.index t a * S2000x2.size a + S2000x2.size a := by
  show i ∈ ((View.whole main_v116).slice (win2_2.rect t)).set ↔ _
  rw [View.set_slice_whole, Rect.mem_set_unit]
  exact Iff.rfl

/-- Every entry of the output array is written: row `r` by point `r / 2000`. -/
theorem every_entry_written (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : grid2.N = 50 := N_2
  let t : Fin cfg2.N := ⟨(i 0).val / 2000, by show (i 0).val / 2000 < grid2.N; omega⟩
  obtain ⟨e0, e1, e2, e3, e4, e5⟩ := block_indices t
  have ht : t.val = (i 0).val / 2000 := rfl
  refine ⟨t, flush2_2 t, ?_⟩
  rw [mem_block]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 2 ≤ (i 1).val ∧ (i 1).val < win2_2.index t (1 : Fin 2) * 2 + 2
    omega

/-- After the region the output array is the product of the two arrays the region found. -/
theorem product (c : Dev nD) :
    (dat2 V c).arrAt 2 cfg2.N = rowsTimes (V c main_v115) (V c main_arg8) :=
  (dat2 V c).arrAt_eq_of_cover 2 _ (fun t _ => written_block V c t) every_entry_written

end Cert.KernelIdeal.Region2

end
-- ==== Proof.Products.lean ====
/-
  Rows times a matrix is the host's dot_general.

  On the extended reals the reference's `dot_general` of a [100000, 512] array with a [512, n] matrix, read at
  row `r` and column `q`, is `∑ k, x (r, k) * w (k, q)` — the same sum the matmul regions leave in their
  output arrays. The generated read-at-an-index lemma states the sum over its own index functions; they are
  the pairs `(r, k)` and `(k, q)`, coordinate by coordinate.
-/
import proofs.«161216_j58317065945288_1_alg».proof.Proof.Region0
import proofs.«161216_j58317065945288_1_alg».proof.Proof.Region1
import proofs.«161216_j58317065945288_1_alg».proof.Proof.Region2
import proofs.«161216_j58317065945288_1_alg».proof.Proof.RefStages

noncomputable section

namespace Cert.KernelIdeal.Products

open Cert.KernelIdeal Idealize.ShloMosaic Idealize.ShloMosaic.ValueIdx

/-- The first product. -/
theorem first (x : (⟨S100000x512, .f32⟩ : BufTy).Contents (Elt Ideal)) (w : (⟨S512x512, .f32⟩ : BufTy).Contents (Elt Ideal)) :
    Region0.rowsTimes x w = Cert.ReferenceIdeal.Stages.val_main_v34 (F := Ideal) x w := by
  funext i
  rw [Cert.ReferenceIdeal.Stages.val_main_v34_apply]
  unfold Region0.rowsTimes
  refine Finset.sum_congr rfl fun k _ => ?_
  have el : Cert.ReferenceIdeal.Stages.lidx_main_v34 i k = ix2 (i 0) k :=
    funext fun a => Fin.ext (by match a with | ⟨0, _⟩ => rfl | ⟨1, _⟩ => rfl)
  have er : Cert.ReferenceIdeal.Stages.ridx_main_v34 i k = ix2 k (i 1) :=
    funext fun a => Fin.ext (by match a with | ⟨0, _⟩ => rfl | ⟨1, _⟩ => rfl)
  rw [el, er]
  rfl

/-- The second product: its left operand is the first block's result. -/
theorem second (x0 : (⟨S100000x512, .f32⟩ : BufTy).Contents (Elt Ideal)) (x1 : (⟨S2x150000, .i32⟩ : BufTy).Contents (Elt Ideal)) (x2 : (⟨S150000, .f32⟩ : BufTy).Contents (Elt Ideal))
    (x4 : (⟨S512x512, .f32⟩ : BufTy).Contents (Elt Ideal)) (x5 : (⟨S512, .f32⟩ : BufTy).Contents (Elt Ideal)) (x6 : (⟨S512x512, .f32⟩ : BufTy).Contents (Elt Ideal)) :
    Region1.rowsTimes (Cert.ReferenceIdeal.Stages.val_main_v59 (F := Ideal) x0 x1 x2 x4 x5) x6
      = Cert.ReferenceIdeal.Stages.val_main_v90 (F := Ideal) x0 x1 x2 x4 x5 x6 := by
  funext i
  rw [Cert.ReferenceIdeal.Stages.val_main_v90_apply]
  unfold Region1.rowsTimes
  refine Finset.sum_congr rfl fun k _ => ?_
  have el : Cert.ReferenceIdeal.Stages.lidx_main_v90 i k = ix2 (i 0) k :=
    funext fun a => Fin.ext (by match a with | ⟨0, _⟩ => rfl | ⟨1, _⟩ => rfl)
  have er : Cert.ReferenceIdeal.Stages.ridx_main_v90 i k = ix2 k (i 1) :=
    funext fun a => Fin.ext (by match a with | ⟨0, _⟩ => rfl | ⟨1, _⟩ => rfl)
  rw [el, er]
  rfl

/-- The third product, two columns wide: its left operand is the second block's result. -/
theorem third (x0 : (⟨S100000x512, .f32⟩ : BufTy).Contents (Elt Ideal)) (x1 : (⟨S2x150000, .i32⟩ : BufTy).Contents (Elt Ideal)) (x2 : (⟨S150000, .f32⟩ : BufTy).Contents (Elt Ideal))
    (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal))
    (x8 : (⟨S512x2, .f32⟩ : BufTy).Contents (Elt Ideal)) :
    Region2.rowsTimes (Cert.ReferenceIdeal.Stages.val_main_v115 (F := Ideal) x0 x1 x2 x4 x5 x6 x7) x8
      = Cert.ReferenceIdeal.Stages.val_main_v146 (F := Ideal) x0 x1 x2 x4 x5 x6 x7 x8 := by
  funext i
  rw [Cert.ReferenceIdeal.Stages.val_main_v146_apply]
  unfold Region2.rowsTimes
  refine Finset.sum_congr rfl fun k _ => ?_
  have el : Cert.ReferenceIdeal.Stages.lidx_main_v146 i k = ix2 (i 0) k :=
    funext fun a => Fin.ext (by match a with | ⟨0, _⟩ => rfl | ⟨1, _⟩ => rfl)
  have er : Cert.ReferenceIdeal.Stages.ridx_main_v146 i k = ix2 k (i 1) :=
    funext fun a => Fin.ext (by match a with | ⟨0, _⟩ => rfl | ⟨1, _⟩ => rfl)
  rw [el, er]
  rfl

end Cert.KernelIdeal.Products

end
-- ==== Proof.Tactics.lean ====
/-
  One tactic step shared by the modules that read a line of host operations.

  The one-pass evaluation of a line of operations does not rewrite inside the operand list of a
  `concatenate` (the operands sit in dependent pairs), so reads of earlier buffers are left there under the
  operations' `result`. `after_results_inside` finishes those reads with the library's rewriting lemmas: an
  operation's result at its own buffer is its function's value, at any other buffer what was there before.
-/
import Idealize.ShloMosaic.Lib.StableHlo.Run

namespace Cert.Tactics

open Idealize.ShloMosaic.StableHlo in
/-- Finish the buffer reads a `simp` pass left under an operation's `result`. -/
macro "after_results_inside" : tactic =>
  `(tactic| repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)))

/-- Contents carried to a buffer's type and back are unchanged: the two transports are along one equation and its
    inverse. An outlined function's operations wrap every intermediate in such a pair. -/
theorem ofBuf_toBuf {sig : Idealize.ShloMosaic.RefSig} {Val : Idealize.ShloMosaic.EltTy → Type} {T : Idealize.ShloMosaic.BufTy}
    (x : Idealize.ShloMosaic.StableHlo.TRef sig T) (v : T.Contents Val) : x.ofBuf (x.toBuf v) = v := by
  obtain ⟨r, rfl, _, _⟩ := x
  rfl

end Cert.Tactics
-- ==== Proof.State.lean ====
/-
  What every stretch of host operations finds and leaves alone.

  The program slices the edge array into its two rows once, at the start, and never writes those two buffers
  or any argument again. `Holds U a0 … a9` says that the buffer contents `U` have the two sliced rows of
  `a1` (as the reference's stages `%1` and `%3`) and each argument array `ak` in its buffer. It holds after the
  first stretch and every later stretch and region preserves it; the stretches' value lemmas read their
  operands through it.
-/
import proofs.«161216_j58317065945288_1_alg».proof.Proof.Gen.KernelIdeal.Launch
import proofs.«161216_j58317065945288_1_alg».proof.Proof.RefStages
import Idealize.ShloMosaic.Lib.StableHlo.Run
import proofs.«161216_j58317065945288_1_alg».proof.Proof.Tactics

set_option maxRecDepth 16384

noncomputable section

namespace Cert.KernelIdeal

open Cert.KernelIdeal.Gen Idealize.ShloMosaic Idealize.ShloMosaic.TcCoe Idealize.ShloMosaic.StableHlo

variable {F : FTy → Type} [FloatOps F]

variable (a0 : (⟨S100000x512, .f32⟩ : BufTy).Contents (Elt F)) (a1 : (⟨S2x150000, .i32⟩ : BufTy).Contents (Elt F))
  (a2 : (⟨S150000, .f32⟩ : BufTy).Contents (Elt F)) (a3 : (⟨S2x200000, .i32⟩ : BufTy).Contents (Elt F))
  (a4 : (⟨S512x512, .f32⟩ : BufTy).Contents (Elt F)) (a5 : (⟨S512, .f32⟩ : BufTy).Contents (Elt F))
  (a6 : (⟨S512x512, .f32⟩ : BufTy).Contents (Elt F)) (a7 : (⟨S512, .f32⟩ : BufTy).Contents (Elt F))
  (a8 : (⟨S512x2, .f32⟩ : BufTy).Contents (Elt F)) (a9 : (⟨S2, .f32⟩ : BufTy).Contents (Elt F))

/-- The contents `U` hold the two sliced index rows of `a1` and the ten arguments. -/
structure Holds (U : Valuation τ sig (Elt F)) : Prop where
  row : U (Proc.devRef .tc main_v1) = Cert.ReferenceIdeal.Stages.val_main_v1 a1
  col : U (Proc.devRef .tc main_v3) = Cert.ReferenceIdeal.Stages.val_main_v3 a1
  arg0 : U (Proc.devRef .tc main_arg0) = a0
  arg1 : U (Proc.devRef .tc main_arg1) = a1
  arg2 : U (Proc.devRef .tc main_arg2) = a2
  arg3 : U (Proc.devRef .tc main_arg3) = a3
  arg4 : U (Proc.devRef .tc main_arg4) = a4
  arg5 : U (Proc.devRef .tc main_arg5) = a5
  arg6 : U (Proc.devRef .tc main_arg6) = a6
  arg7 : U (Proc.devRef .tc main_arg7) = a7
  arg8 : U (Proc.devRef .tc main_arg8) = a8
  arg9 : U (Proc.devRef .tc main_arg9) = a9

/-- The first stretch slices the two rows out of the edge array and writes no argument. -/
theorem holds_after_slices (U : Valuation τ sig (Elt F))
    (g0 : U (Proc.devRef .tc main_arg0) = a0) (g1 : U (Proc.devRef .tc main_arg1) = a1)
    (g2 : U (Proc.devRef .tc main_arg2) = a2) (g3 : U (Proc.devRef .tc main_arg3) = a3)
    (g4 : U (Proc.devRef .tc main_arg4) = a4) (g5 : U (Proc.devRef .tc main_arg5) = a5)
    (g6 : U (Proc.devRef .tc main_arg6) = a6) (g7 : U (Proc.devRef .tc main_arg7) = a7)
    (g8 : U (Proc.devRef .tc main_arg8) = a8) (g9 : U (Proc.devRef .tc main_arg9) = a9) :
    Holds a0 a1 a2 a3 a4 a5 a6 a7 a8 a9 (after hostOps0 U) := by
  dsimp only [hostOps0]
  constructor
  · after_results_simp; rw [g1]; rfl
  · after_results_simp; rw [g1]; rfl
  all_goals (after_results_simp; assumption)

end Cert.KernelIdeal

end
-- ==== Proof.Block1.lean ====
/-
  The first residual block's host operations compute the reference's stages.

  Between the first and the second matmul the program runs, on the host, one graph convolution's gather,
  normalize and scatter-add, a bias, a ReLU, a row-wise L2 normalization and the residual average. The
  reference program runs the same operations on the same operands; the one difference is where the matmul's
  product comes from. So: if the contents `U` the block starts from hold the sliced index rows and the
  arguments and, at the matmul's output buffer, the reference's product, then the block's result buffer ends at
  the reference's stage of the same number. The block is cut in two at the bias add so that the composed terms
  stay small: the first half ends at the convolution plus bias, the second half normalizes and averages.
-/
import proofs.«161216_j58317065945288_1_alg».proof.Proof.State

set_option maxRecDepth 16384
-- each lemma walks a line of up to 61 operations once per buffer it reads
set_option maxHeartbeats 4000000

noncomputable section

namespace Cert.KernelIdeal.Block1

open Cert.KernelIdeal Cert.KernelIdeal.Gen Idealize.ShloMosaic Idealize.ShloMosaic.TcCoe Idealize.ShloMosaic.StableHlo

open Cert.Tactics

variable {F : FTy → Type} [FloatOps F]

/-- The convolution applied to the contents `U`: degrees, normalization, gather, scatter-add, bias. -/
abbrev conv (U : Valuation τ sig (Elt F)) : Valuation τ sig (Elt F) :=
  after hostOps1_2 (after hostOps1_1 (after hostOps1 U))

/-- The block's second half: ReLU, the row norms, the division, the residual average. -/
abbrev normalize (U : Valuation τ sig (Elt F)) : Valuation τ sig (Elt F) :=
  after hostOps1_5 (after hostOps1_4 (after hostOps1_3 U))

variable (U : Valuation τ sig (Elt F))
variable (a0 : (⟨S100000x512, .f32⟩ : BufTy).Contents (Elt F)) (a1 : (⟨S2x150000, .i32⟩ : BufTy).Contents (Elt F))
  (a2 : (⟨S150000, .f32⟩ : BufTy).Contents (Elt F)) (a3 : (⟨S2x200000, .i32⟩ : BufTy).Contents (Elt F))
  (a4 : (⟨S512x512, .f32⟩ : BufTy).Contents (Elt F)) (a5 : (⟨S512, .f32⟩ : BufTy).Contents (Elt F))
  (a6 : (⟨S512x512, .f32⟩ : BufTy).Contents (Elt F)) (a7 : (⟨S512, .f32⟩ : BufTy).Contents (Elt F))
  (a8 : (⟨S512x2, .f32⟩ : BufTy).Contents (Elt F)) (a9 : (⟨S2, .f32⟩ : BufTy).Contents (Elt F))

/-- The convolution writes neither the sliced rows nor an argument. -/
theorem conv_holds (h : Holds a0 a1 a2 a3 a4 a5 a6 a7 a8 a9 U) : Holds a0 a1 a2 a3 a4 a5 a6 a7 a8 a9 (conv U) := by
  obtain ⟨h1, h3, g0, g1, g2, g3, g4, g5, g6, g7, g8, g9⟩ := h
  dsimp only [conv, hostOps1, hostOps1_1, hostOps1_2]
  constructor <;> (after_results_simp; assumption)

/-- Nor does the rest. -/
theorem normalize_holds (h : Holds a0 a1 a2 a3 a4 a5 a6 a7 a8 a9 U) : Holds a0 a1 a2 a3 a4 a5 a6 a7 a8 a9 (normalize U) := by
  obtain ⟨h1, h3, g0, g1, g2, g3, g4, g5, g6, g7, g8, g9⟩ := h
  dsimp only [normalize, hostOps1_3, hostOps1_4, hostOps1_5]
  constructor <;> (after_results_simp; assumption)

/-- The convolution plus bias is the reference's `%50`, given the reference's product at the matmul's output. -/
theorem conv_value (h : Holds a0 a1 a2 a3 a4 a5 a6 a7 a8 a9 U)
    (h4 : U (Proc.devRef .tc main_v4) = Cert.ReferenceIdeal.Stages.val_main_v34 a0 a4) :
    conv U (Proc.devRef .tc main_v50) = Cert.ReferenceIdeal.Stages.val_main_v50 a0 a1 a2 a4 a5 := by
  obtain ⟨h1, h3, g0, g1, g2, g3, g4, g5, g6, g7, g8, g9⟩ := h
  dsimp only [conv, hostOps1, hostOps1_1, hostOps1_2]
  after_results_simp
  after_results_inside
  rw [h1, h3, g2, g5, h4]
  rfl

/-- The second half turns the reference's `%50` into the reference's `%59`. -/
theorem normalize_value (h : Holds a0 a1 a2 a3 a4 a5 a6 a7 a8 a9 U)
    (h50 : U (Proc.devRef .tc main_v50) = Cert.ReferenceIdeal.Stages.val_main_v50 a0 a1 a2 a4 a5) :
    normalize U (Proc.devRef .tc main_v59) = Cert.ReferenceIdeal.Stages.val_main_v59 a0 a1 a2 a4 a5 := by
  obtain ⟨h1, h3, g0, g1, g2, g3, g4, g5, g6, g7, g8, g9⟩ := h
  dsimp only [normalize, hostOps1_3, hostOps1_4, hostOps1_5]
  after_results_simp
  after_results_inside
  rw [g0, h50]
  rfl

end Cert.KernelIdeal.Block1

end
-- ==== Proof.Block2.lean ====
/-
  The second residual block's host operations compute the reference's stages.

  The same graph convolution, bias, ReLU, row-wise normalization and residual average as the first block, now
  on the first block's result: the convolution gathers rows of the second matmul's product, and the residual
  adds the first block's result back. If the contents `U` the block starts from hold the sliced index rows,
  the arguments, the reference's `%59` at the first block's result buffer and the reference's second product
  at the second matmul's output buffer, the block's result buffer ends at the reference's `%115`.
-/
import proofs.«161216_j58317065945288_1_alg».proof.Proof.State

set_option maxRecDepth 16384
-- each lemma walks a line of up to 61 operations once per buffer it reads
set_option maxHeartbeats 4000000

noncomputable section

namespace Cert.KernelIdeal.Block2

open Cert.KernelIdeal Cert.KernelIdeal.Gen Idealize.ShloMosaic Idealize.ShloMosaic.TcCoe Idealize.ShloMosaic.StableHlo

open Cert.Tactics

variable {F : FTy → Type} [FloatOps F]

/-- The convolution applied to the contents `U`: degrees, normalization, gather, scatter-add, bias. -/
abbrev conv (U : Valuation τ sig (Elt F)) : Valuation τ sig (Elt F) :=
  after hostOps2_2 (after hostOps2_1 (after hostOps2 U))

/-- The block's second half: ReLU, the row norms, the division, the residual average. -/
abbrev normalize (U : Valuation τ sig (Elt F)) : Valuation τ sig (Elt F) :=
  after hostOps2_5 (after hostOps2_4 (after hostOps2_3 U))

variable (U : Valuation τ sig (Elt F))
variable (a0 : (⟨S100000x512, .f32⟩ : BufTy).Contents (Elt F)) (a1 : (⟨S2x150000, .i32⟩ : BufTy).Contents (Elt F))
  (a2 : (⟨S150000, .f32⟩ : BufTy).Contents (Elt F)) (a3 : (⟨S2x200000, .i32⟩ : BufTy).Contents (Elt F))
  (a4 : (⟨S512x512, .f32⟩ : BufTy).Contents (Elt F)) (a5 : (⟨S512, .f32⟩ : BufTy).Contents (Elt F))
  (a6 : (⟨S512x512, .f32⟩ : BufTy).Contents (Elt F)) (a7 : (⟨S512, .f32⟩ : BufTy).Contents (Elt F))
  (a8 : (⟨S512x2, .f32⟩ : BufTy).Contents (Elt F)) (a9 : (⟨S2, .f32⟩ : BufTy).Contents (Elt F))

/-- The convolution writes neither the sliced rows nor an argument. -/
theorem conv_holds (h : Holds a0 a1 a2 a3 a4 a5 a6 a7 a8 a9 U) : Holds a0 a1 a2 a3 a4 a5 a6 a7 a8 a9 (conv U) := by
  obtain ⟨h1, h3, g0, g1, g2, g3, g4, g5, g6, g7, g8, g9⟩ := h
  dsimp only [conv, hostOps2, hostOps2_1, hostOps2_2]
  constructor <;> (after_results_simp; assumption)

/-- Nor does the rest. -/
theorem normalize_holds (h : Holds a0 a1 a2 a3 a4 a5 a6 a7 a8 a9 U) : Holds a0 a1 a2 a3 a4 a5 a6 a7 a8 a9 (normalize U) := by
  obtain ⟨h1, h3, g0, g1, g2, g3, g4, g5, g6, g7, g8, g9⟩ := h
  dsimp only [normalize, hostOps2_3, hostOps2_4, hostOps2_5]
  constructor <;> (after_results_simp; assumption)

/-- The convolution plus bias is the reference's `%106`, given the reference's second product. -/
theorem conv_value (h : Holds a0 a1 a2 a3 a4 a5 a6 a7 a8 a9 U)
    (h60 : U (Proc.devRef .tc main_v60) = Cert.ReferenceIdeal.Stages.val_main_v90 a0 a1 a2 a4 a5 a6) :
    conv U (Proc.devRef .tc main_v106) = Cert.ReferenceIdeal.Stages.val_main_v106 a0 a1 a2 a4 a5 a6 a7 := by
  obtain ⟨h1, h3, g0, g1, g2, g3, g4, g5, g6, g7, g8, g9⟩ := h
  dsimp only [conv, hostOps2, hostOps2_1, hostOps2_2]
  after_results_simp
  after_results_inside
  rw [h1, h3, g2, g7, h60]
  rfl

/-- The convolution does not write the first block's result. -/
theorem conv_keeps_first : conv U (Proc.devRef .tc main_v59) = U (Proc.devRef .tc main_v59) := by
  dsimp only [conv, hostOps2, hostOps2_1, hostOps2_2]
  after_results_simp

/-- The second half turns the reference's `%106` and `%59` into the reference's `%115`. -/
theorem normalize_value
    (h59 : U (Proc.devRef .tc main_v59) = Cert.ReferenceIdeal.Stages.val_main_v59 a0 a1 a2 a4 a5)
    (h106 : U (Proc.devRef .tc main_v106) = Cert.ReferenceIdeal.Stages.val_main_v106 a0 a1 a2 a4 a5 a6 a7) :
    normalize U (Proc.devRef .tc main_v115) = Cert.ReferenceIdeal.Stages.val_main_v115 a0 a1 a2 a4 a5 a6 a7 := by
  dsimp only [normalize, hostOps2_3, hostOps2_4, hostOps2_5]
  after_results_simp
  after_results_inside
  rw [h59, h106]
  rfl

end Cert.KernelIdeal.Block2

end
-- ==== Proof.Tail.lean ====
/-
  The host operations after the last matmul compute the reference's result.

  A third graph convolution — this one two columns wide, gathering rows of the third matmul's product — plus
  its bias; then a log-softmax over the two columns; then, per predictor edge, minus the product of the two end
  points' rows (three lemmas, one per step). If the contents `U` this starts from hold the sliced index rows, the arguments and the
  reference's third product at the third matmul's output buffer, the result buffer ends at the reference's
  result. Cut in two at the bias add so that the composed terms stay small.
-/
import proofs.«161216_j58317065945288_1_alg».proof.Proof.State

set_option maxRecDepth 16384
-- each lemma walks a line of up to 61 operations once per buffer it reads
set_option maxHeartbeats 4000000

noncomputable section

namespace Cert.KernelIdeal.Tail

open Cert.KernelIdeal Cert.KernelIdeal.Gen Idealize.ShloMosaic Idealize.ShloMosaic.TcCoe Idealize.ShloMosaic.StableHlo

open Cert.Tactics

variable {F : FTy → Type} [FloatOps F]

/-- The convolution applied to the contents `U`: degrees, normalization, gather, scatter-add, bias. -/
abbrev conv (U : Valuation τ sig (Elt F)) : Valuation τ sig (Elt F) :=
  after hostOps3_2 (after hostOps3_1 (after hostOps3 U))

/-- The log-softmax over the two columns. -/
abbrev softmax (U : Valuation τ sig (Elt F)) : Valuation τ sig (Elt F) :=
  after hostOps3_3 U

/-- Per predictor edge, minus the product of the two end points' rows. -/
abbrev edges (U : Valuation τ sig (Elt F)) : Valuation τ sig (Elt F) :=
  after hostOps3_4 U

variable (U : Valuation τ sig (Elt F))
variable (a0 : (⟨S100000x512, .f32⟩ : BufTy).Contents (Elt F)) (a1 : (⟨S2x150000, .i32⟩ : BufTy).Contents (Elt F))
  (a2 : (⟨S150000, .f32⟩ : BufTy).Contents (Elt F)) (a3 : (⟨S2x200000, .i32⟩ : BufTy).Contents (Elt F))
  (a4 : (⟨S512x512, .f32⟩ : BufTy).Contents (Elt F)) (a5 : (⟨S512, .f32⟩ : BufTy).Contents (Elt F))
  (a6 : (⟨S512x512, .f32⟩ : BufTy).Contents (Elt F)) (a7 : (⟨S512, .f32⟩ : BufTy).Contents (Elt F))
  (a8 : (⟨S512x2, .f32⟩ : BufTy).Contents (Elt F)) (a9 : (⟨S2, .f32⟩ : BufTy).Contents (Elt F))

/-- The convolution writes neither the sliced rows nor an argument. -/
theorem conv_holds (h : Holds a0 a1 a2 a3 a4 a5 a6 a7 a8 a9 U) : Holds a0 a1 a2 a3 a4 a5 a6 a7 a8 a9 (conv U) := by
  obtain ⟨h1, h3, g0, g1, g2, g3, g4, g5, g6, g7, g8, g9⟩ := h
  dsimp only [conv, hostOps3, hostOps3_1, hostOps3_2]
  constructor <;> (after_results_simp; assumption)

/-- Nor does the log-softmax. -/
theorem softmax_holds (h : Holds a0 a1 a2 a3 a4 a5 a6 a7 a8 a9 U) : Holds a0 a1 a2 a3 a4 a5 a6 a7 a8 a9 (softmax U) := by
  obtain ⟨h1, h3, g0, g1, g2, g3, g4, g5, g6, g7, g8, g9⟩ := h
  dsimp only [softmax, hostOps3_3]
  constructor <;> (after_results_simp; assumption)

/-- The convolution plus bias is the reference's `%162`, given the reference's third product. -/
theorem conv_value (h : Holds a0 a1 a2 a3 a4 a5 a6 a7 a8 a9 U)
    (h116 : U (Proc.devRef .tc main_v116) = Cert.ReferenceIdeal.Stages.val_main_v146 a0 a1 a2 a4 a5 a6 a7 a8) :
    conv U (Proc.devRef .tc main_v162) = Cert.ReferenceIdeal.Stages.val_main_v162 a0 a1 a2 a4 a5 a6 a7 a8 a9 := by
  obtain ⟨h1, h3, g0, g1, g2, g3, g4, g5, g6, g7, g8, g9⟩ := h
  dsimp only [conv, hostOps3, hostOps3_1, hostOps3_2]
  after_results_simp
  after_results_inside
  rw [h1, h3, g2, g9, h116]
  rfl

/-- The log-softmax turns the reference's `%162` into the reference's `%163`. Every intermediate of the outlined
    function sits under a transport to its buffer's type and back; those cancel. -/
theorem softmax_value
    (h162 : U (Proc.devRef .tc main_v162) = Cert.ReferenceIdeal.Stages.val_main_v162 a0 a1 a2 a4 a5 a6 a7 a8 a9) :
    softmax U (Proc.devRef .tc main_v163) = Cert.ReferenceIdeal.Stages.val_main_v163 a0 a1 a2 a4 a5 a6 a7 a8 a9 := by
  dsimp only [softmax, hostOps3_3]
  after_results_simp
  rw [h162]
  simp only [ofBuf_toBuf]
  rfl

/-- The per-edge products turn the reference's `%163` into the reference's result. -/
theorem edges_value (h : Holds a0 a1 a2 a3 a4 a5 a6 a7 a8 a9 U)
    (h163 : U (Proc.devRef .tc main_v163) = Cert.ReferenceIdeal.Stages.val_main_v163 a0 a1 a2 a4 a5 a6 a7 a8 a9) :
    edges U (Proc.devRef .tc main_v183) = Cert.ReferenceIdeal.Stages.val_main_v183 a0 a1 a2 a3 a4 a5 a6 a7 a8 a9 := by
  obtain ⟨h1, h3, g0, g1, g2, g3, g4, g5, g6, g7, g8, g9⟩ := h
  dsimp only [edges, hostOps3_4]
  after_results_simp
  rw [g3, h163]
  rfl

end Cert.KernelIdeal.Tail

end
-- ==== Proof.Bridge.lean ====
/-
  The kernel program's result is the reference's stage `%183` of the launch arguments.

  Follow the buffer contents from boundary to boundary. After the first stretch the two sliced rows and the
  arguments are in place. A matmul region changes only its output array: its two input arrays read back as they
  were, every other buffer is untouched, and the output array is rows-times-matrix of the inputs — the
  reference's `dot_general` of the same arrays. A block of host operations then turns that product (and, in the
  second block, the first block's result) into the reference's next stage. Three regions and three blocks later
  the result buffer holds `%183`.
-/
import proofs.«161216_j58317065945288_1_alg».proof.Proof.Products
import proofs.«161216_j58317065945288_1_alg».proof.Proof.Block1
import proofs.«161216_j58317065945288_1_alg».proof.Proof.Block2
import proofs.«161216_j58317065945288_1_alg».proof.Proof.Tail

set_option maxRecDepth 16384

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

theorem result :
    W21 m ρ c (Proc.devRef .tc main_v183) = Cert.ReferenceIdeal.Stages.val_main_v183 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  -- the first stretch: the slices
  have s1 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (W1 m ρ c) :=
    holds_after_slices _ _ _ _ _ _ _ _ _ _ (W0 m ρ c) rfl rfl rfl rfl rfl rfl rfl rfl rfl rfl
  -- region 0 reads the node features and the first weight matrix back unchanged and writes their product
  have s2 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (W2 m ρ c) :=
    ⟨(W2_of_ne m ρ c main_v1 (by decide)).trans s1.row,
      (W2_of_ne m ρ c main_v3 (by decide)).trans s1.col,
      (W2_arr m ρ c 0).trans ((((dat0 (V1 m ρ) c).arrAt_in 0 rfl _).trans (A_eq0 (V1 m ρ) c 0)).trans s1.arg0),
      (W2_of_ne m ρ c main_arg1 (by decide)).trans s1.arg1,
      (W2_of_ne m ρ c main_arg2 (by decide)).trans s1.arg2,
      (W2_of_ne m ρ c main_arg3 (by decide)).trans s1.arg3,
      (W2_arr m ρ c 1).trans ((((dat0 (V1 m ρ) c).arrAt_in 1 rfl _).trans (A_eq0 (V1 m ρ) c 1)).trans s1.arg4),
      (W2_of_ne m ρ c main_arg5 (by decide)).trans s1.arg5,
      (W2_of_ne m ρ c main_arg6 (by decide)).trans s1.arg6,
      (W2_of_ne m ρ c main_arg7 (by decide)).trans s1.arg7,
      (W2_of_ne m ρ c main_arg8 (by decide)).trans s1.arg8,
      (W2_of_ne m ρ c main_arg9 (by decide)).trans s1.arg9⟩
  have p0 : W2 m ρ c (Proc.devRef .tc main_v4) = Cert.ReferenceIdeal.Stages.val_main_v34 (F := Ideal) (m ((c.tc : Thread nD τ).loc main_arg0)) (m ((c.tc : Thread nD τ).loc main_arg4)) := by
    refine (W2_arr m ρ c 2).trans ((Region0.product (V1 m ρ) c).trans ?_)
    rw [show V1 m ρ c main_arg0 = (m ((c.tc : Thread nD τ).loc main_arg0)) from s1.arg0, show V1 m ρ c main_arg4 = (m ((c.tc : Thread nD τ).loc main_arg4)) from s1.arg4]
    exact Products.first _ _
  -- the first block
  have s5 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (Block1.conv (W2 m ρ c)) := Block1.conv_holds _ _ _ _ _ _ _ _ _ _ _ s2
  have v50 := Block1.conv_value _ _ _ _ _ _ _ _ _ _ _ s2 p0
  have s8 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (W8 m ρ c) := Block1.normalize_holds _ _ _ _ _ _ _ _ _ _ _ s5
  have v59 : W8 m ρ c (Proc.devRef .tc main_v59)
      = Cert.ReferenceIdeal.Stages.val_main_v59 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
    Block1.normalize_value _ _ _ _ _ _ _ _ _ _ _ s5 v50
  -- region 1 reads the first block's result and the second weight matrix back and writes their product
  have s9 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (W9 m ρ c) :=
    ⟨(W9_of_ne m ρ c main_v1 (by decide)).trans s8.row,
      (W9_of_ne m ρ c main_v3 (by decide)).trans s8.col,
      (W9_of_ne m ρ c main_arg0 (by decide)).trans s8.arg0,
      (W9_of_ne m ρ c main_arg1 (by decide)).trans s8.arg1,
      (W9_of_ne m ρ c main_arg2 (by decide)).trans s8.arg2,
      (W9_of_ne m ρ c main_arg3 (by decide)).trans s8.arg3,
      (W9_of_ne m ρ c main_arg4 (by decide)).trans s8.arg4,
      (W9_of_ne m ρ c main_arg5 (by decide)).trans s8.arg5,
      (W9_arr m ρ c 1).trans ((((dat1 (V8 m ρ) c).arrAt_in 1 rfl _).trans (A_eq1 (V8 m ρ) c 1)).trans s8.arg6),
      (W9_of_ne m ρ c main_arg7 (by decide)).trans s8.arg7,
      (W9_of_ne m ρ c main_arg8 (by decide)).trans s8.arg8,
      (W9_of_ne m ρ c main_arg9 (by decide)).trans s8.arg9⟩
  have k59 : W9 m ρ c (Proc.devRef .tc main_v59)
      = Cert.ReferenceIdeal.Stages.val_main_v59 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) :=
    (W9_arr m ρ c 0).trans ((((dat1 (V8 m ρ) c).arrAt_in 0 rfl _).trans (A_eq1 (V8 m ρ) c 0)).trans v59)
  have p1 : W9 m ρ c (Proc.devRef .tc main_v60)
      = Cert.ReferenceIdeal.Stages.val_main_v90 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
    refine (W9_arr m ρ c 2).trans ((Region1.product (V8 m ρ) c).trans ?_)
    rw [show V8 m ρ c main_v59 = _ from v59, show V8 m ρ c main_arg6 = (m ((c.tc : Thread nD τ).loc main_arg6)) from s8.arg6]
    exact Products.second _ _ _ _ _ _
  -- the second block
  have s12 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (Block2.conv (W9 m ρ c)) := Block2.conv_holds _ _ _ _ _ _ _ _ _ _ _ s9
  have v106 := Block2.conv_value _ _ _ _ _ _ _ _ _ _ _ s9 p1
  have k59' := (Block2.conv_keeps_first (W9 m ρ c)).trans k59
  have s15 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (W15 m ρ c) := Block2.normalize_holds _ _ _ _ _ _ _ _ _ _ _ s12
  have v115 : W15 m ρ c (Proc.devRef .tc main_v115)
      = Cert.ReferenceIdeal.Stages.val_main_v115 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) :=
    Block2.normalize_value _ _ _ _ _ _ _ _ k59' v106
  -- region 2 reads the second block's result and the two-column weight matrix back and writes their product
  have s16 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (W16 m ρ c) :=
    ⟨(W16_of_ne m ρ c main_v1 (by decide)).trans s15.row,
      (W16_of_ne m ρ c main_v3 (by decide)).trans s15.col,
      (W16_of_ne m ρ c main_arg0 (by decide)).trans s15.arg0,
      (W16_of_ne m ρ c main_arg1 (by decide)).trans s15.arg1,
      (W16_of_ne m ρ c main_arg2 (by decide)).trans s15.arg2,
      (W16_of_ne m ρ c main_arg3 (by decide)).trans s15.arg3,
      (W16_of_ne m ρ c main_arg4 (by decide)).trans s15.arg4,
      (W16_of_ne m ρ c main_arg5 (by decide)).trans s15.arg5,
      (W16_of_ne m ρ c main_arg6 (by decide)).trans s15.arg6,
      (W16_of_ne m ρ c main_arg7 (by decide)).trans s15.arg7,
      (W16_arr m ρ c 1).trans ((((dat2 (V15 m ρ) c).arrAt_in 1 rfl _).trans (A_eq2 (V15 m ρ) c 1)).trans s15.arg8),
      (W16_of_ne m ρ c main_arg9 (by decide)).trans s15.arg9⟩
  have p2 : W16 m ρ c (Proc.devRef .tc main_v116)
      = Cert.ReferenceIdeal.Stages.val_main_v146 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
    refine (W16_arr m ρ c 2).trans ((Region2.product (V15 m ρ) c).trans ?_)
    rw [show V15 m ρ c main_v115 = _ from v115, show V15 m ρ c main_arg8 = (m ((c.tc : Thread nD τ).loc main_arg8)) from s15.arg8]
    exact Products.third _ _ _ _ _ _ _ _
  -- the tail
  have s19 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (Tail.conv (W16 m ρ c)) := Tail.conv_holds _ _ _ _ _ _ _ _ _ _ _ s16
  have v162 := Tail.conv_value _ _ _ _ _ _ _ _ _ _ _ s16 p2
  have s20 : Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (Tail.softmax (Tail.conv (W16 m ρ c))) := Tail.softmax_holds _ _ _ _ _ _ _ _ _ _ _ s19
  have v163 := Tail.softmax_value _ _ _ _ _ _ _ _ _ _ v162
  exact Tail.edges_value _ _ _ _ _ _ _ _ _ _ _ s20 v163

end Cert.KernelIdeal.Bridge

end
-- ==== Proof.RefState.lean ====
/-
  The reference program's line of operations, cut where the kernel program's is.

  The reference's @main is one line of 260 host operations. A line can be run in two steps — the first `k`
  operations, then the rest — so the line is cut at the same places as the kernel program's stretches: the two
  slices; a graph convolution with its matmul and bias; the normalization and residual average; the same two
  again; a third, two-column convolution; the log-softmax; and the per-edge products. `Holds U a0 … a9`
  says of the reference's buffers what it says of the kernel's: the contents `U` have the two sliced rows of
  `a1` and each argument `ak` in its buffer. No operation after the slices writes any of those.
-/
import proofs.«161216_j58317065945288_1_alg».proof.Proof.RefOps
import proofs.«161216_j58317065945288_1_alg».proof.Proof.RefStages
import proofs.«161216_j58317065945288_1_alg».proof.Proof.Tactics

set_option maxRecDepth 16384

noncomputable section

namespace Cert.ReferenceIdeal

open Cert.ReferenceIdeal.Ops Idealize.ShloMosaic Idealize.ShloMosaic.TcCoe Idealize.ShloMosaic.StableHlo

variable {F : FTy → Type} [FloatOps F]

/-- Running a line of operations is running its first `k`, then the rest. -/
theorem after_take_drop (k : Nat) : ∀ (l : List (HloOp τ sig (Elt F))) (V : Valuation τ sig (Elt F)),
    after l V = after (l.drop k) (after (l.take k) V) := by
  induction k with
  | zero => intro l V; rfl
  | succ k ih =>
    intro l V
    cases l with
    | nil => rfl
    | cons a t => exact ih t (a.result V)

/-- The two slices. -/
abbrev slices : List (HloOp τ sig (Elt F)) := (ops (F := F)).take 4
abbrev rest1 : List (HloOp τ sig (Elt F)) := (ops (F := F)).drop 4
/-- The first convolution: degrees, normalization, the matmul, gather, scatter-add, bias. -/
abbrev conv1 : List (HloOp τ sig (Elt F)) := (rest1 (F := F)).take 61
abbrev rest2 : List (HloOp τ sig (Elt F)) := (rest1 (F := F)).drop 61
/-- ReLU, the row norms, the division, the residual average. -/
abbrev norm1 : List (HloOp τ sig (Elt F)) := (rest2 (F := F)).take 17
abbrev rest3 : List (HloOp τ sig (Elt F)) := (rest2 (F := F)).drop 17
abbrev conv2 : List (HloOp τ sig (Elt F)) := (rest3 (F := F)).take 61
abbrev rest4 : List (HloOp τ sig (Elt F)) := (rest3 (F := F)).drop 61
abbrev norm2 : List (HloOp τ sig (Elt F)) := (rest4 (F := F)).take 17
abbrev rest5 : List (HloOp τ sig (Elt F)) := (rest4 (F := F)).drop 17
/-- The third convolution, two columns wide. -/
abbrev conv3 : List (HloOp τ sig (Elt F)) := (rest5 (F := F)).take 61
abbrev rest6 : List (HloOp τ sig (Elt F)) := (rest5 (F := F)).drop 61
/-- The log-softmax over the two columns. -/
abbrev softmax : List (HloOp τ sig (Elt F)) := (rest6 (F := F)).take 15
/-- Per predictor edge, minus the product of the two end points' rows. -/
abbrev edges : List (HloOp τ sig (Elt F)) := (rest6 (F := F)).drop 15

/-- The whole line, piece by piece. -/
theorem ops_in_pieces (V : Valuation τ sig (Elt F)) :
    after ops V
      = after edges (after softmax (after conv3 (after norm2 (after conv2 (after norm1 (after conv1 (after slices V))))))) :=
  (after_take_drop 4 ops V).trans ((after_take_drop 61 rest1 _).trans ((after_take_drop 17 rest2 _).trans
    ((after_take_drop 61 rest3 _).trans ((after_take_drop 17 rest4 _).trans ((after_take_drop 61 rest5 _).trans
      (after_take_drop 15 rest6 _))))))

variable (a0 : (⟨S100000x512, .f32⟩ : BufTy).Contents (Elt F)) (a1 : (⟨S2x150000, .i32⟩ : BufTy).Contents (Elt F))
  (a2 : (⟨S150000, .f32⟩ : BufTy).Contents (Elt F)) (a3 : (⟨S2x200000, .i32⟩ : BufTy).Contents (Elt F))
  (a4 : (⟨S512x512, .f32⟩ : BufTy).Contents (Elt F)) (a5 : (⟨S512, .f32⟩ : BufTy).Contents (Elt F))
  (a6 : (⟨S512x512, .f32⟩ : BufTy).Contents (Elt F)) (a7 : (⟨S512, .f32⟩ : BufTy).Contents (Elt F))
  (a8 : (⟨S512x2, .f32⟩ : BufTy).Contents (Elt F)) (a9 : (⟨S2, .f32⟩ : BufTy).Contents (Elt F))

/-- The contents `U` hold the two sliced index rows of `a1` and the ten arguments. -/
structure Holds (U : Valuation τ sig (Elt F)) : Prop where
  row : U (Proc.devRef .tc main_v1) = Cert.ReferenceIdeal.Stages.val_main_v1 a1
  col : U (Proc.devRef .tc main_v3) = Cert.ReferenceIdeal.Stages.val_main_v3 a1
  arg0 : U (Proc.devRef .tc main_arg0) = a0
  arg1 : U (Proc.devRef .tc main_arg1) = a1
  arg2 : U (Proc.devRef .tc main_arg2) = a2
  arg3 : U (Proc.devRef .tc main_arg3) = a3
  arg4 : U (Proc.devRef .tc main_arg4) = a4
  arg5 : U (Proc.devRef .tc main_arg5) = a5
  arg6 : U (Proc.devRef .tc main_arg6) = a6
  arg7 : U (Proc.devRef .tc main_arg7) = a7
  arg8 : U (Proc.devRef .tc main_arg8) = a8
  arg9 : U (Proc.devRef .tc main_arg9) = a9

/-- The first four operations slice the two rows out of the edge array and write no argument. -/
theorem holds_after_slices (U : Valuation τ sig (Elt F))
    (g0 : U (Proc.devRef .tc main_arg0) = a0) (g1 : U (Proc.devRef .tc main_arg1) = a1)
    (g2 : U (Proc.devRef .tc main_arg2) = a2) (g3 : U (Proc.devRef .tc main_arg3) = a3)
    (g4 : U (Proc.devRef .tc main_arg4) = a4) (g5 : U (Proc.devRef .tc main_arg5) = a5)
    (g6 : U (Proc.devRef .tc main_arg6) = a6) (g7 : U (Proc.devRef .tc main_arg7) = a7)
    (g8 : U (Proc.devRef .tc main_arg8) = a8) (g9 : U (Proc.devRef .tc main_arg9) = a9) :
    Holds a0 a1 a2 a3 a4 a5 a6 a7 a8 a9 (after slices U) := by
  dsimp only [slices, ops, List.take]
  constructor
  · after_results_simp; rw [g1]; rfl
  · after_results_simp; rw [g1]; rfl
  all_goals (after_results_simp; assumption)

end Cert.ReferenceIdeal

end
-- ==== Proof.RefBlocks.lean ====
/-
  The reference's two residual blocks, piece by piece.

  Each convolution piece contains its own matmul: the first multiplies the node features by the first weight
  matrix, the second multiplies the first block's result by the second weight matrix. With the sliced rows and
  the arguments in place (`Holds`), each piece's last buffer ends at the stage of its number; no piece writes
  the sliced rows or an argument, and the second convolution does not write the first block's result, which
  the second residual average still reads.
-/
import proofs.«161216_j58317065945288_1_alg».proof.Proof.RefState

set_option maxRecDepth 16384
-- each lemma walks a line of up to 61 operations once per buffer it reads
set_option maxHeartbeats 4000000

noncomputable section

namespace Cert.ReferenceIdeal.Blocks

open Cert.ReferenceIdeal Cert.ReferenceIdeal.Ops Idealize.ShloMosaic Idealize.ShloMosaic.TcCoe Idealize.ShloMosaic.StableHlo

open Cert.Tactics

variable {F : FTy → Type} [FloatOps F]

variable (U : Valuation τ sig (Elt F))
variable (a0 : (⟨S100000x512, .f32⟩ : BufTy).Contents (Elt F)) (a1 : (⟨S2x150000, .i32⟩ : BufTy).Contents (Elt F))
  (a2 : (⟨S150000, .f32⟩ : BufTy).Contents (Elt F)) (a3 : (⟨S2x200000, .i32⟩ : BufTy).Contents (Elt F))
  (a4 : (⟨S512x512, .f32⟩ : BufTy).Contents (Elt F)) (a5 : (⟨S512, .f32⟩ : BufTy).Contents (Elt F))
  (a6 : (⟨S512x512, .f32⟩ : BufTy).Contents (Elt F)) (a7 : (⟨S512, .f32⟩ : BufTy).Contents (Elt F))
  (a8 : (⟨S512x2, .f32⟩ : BufTy).Contents (Elt F)) (a9 : (⟨S2, .f32⟩ : BufTy).Contents (Elt F))

/-- The first convolution writes neither the sliced rows nor an argument. -/
theorem conv1_holds (h : Holds a0 a1 a2 a3 a4 a5 a6 a7 a8 a9 U) : Holds a0 a1 a2 a3 a4 a5 a6 a7 a8 a9 (after conv1 U) := by
  obtain ⟨h1, h3, g0, g1, g2, g3, g4, g5, g6, g7, g8, g9⟩ := h
  dsimp only [conv1, rest1, ops, List.take, List.drop]
  constructor <;> (after_results_simp; assumption)

/-- Nor does the first normalization. -/
theorem norm1_holds (h : Holds a0 a1 a2 a3 a4 a5 a6 a7 a8 a9 U) : Holds a0 a1 a2 a3 a4 a5 a6 a7 a8 a9 (after norm1 U) := by
  obtain ⟨h1, h3, g0, g1, g2, g3, g4, g5, g6, g7, g8, g9⟩ := h
  dsimp only [norm1, rest2, rest1, ops, List.take, List.drop]
  constructor <;> (after_results_simp; assumption)

/-- Nor does the second convolution. -/
theorem conv2_holds (h : Holds a0 a1 a2 a3 a4 a5 a6 a7 a8 a9 U) : Holds a0 a1 a2 a3 a4 a5 a6 a7 a8 a9 (after conv2 U) := by
  obtain ⟨h1, h3, g0, g1, g2, g3, g4, g5, g6, g7, g8, g9⟩ := h
  dsimp only [conv2, rest3, rest2, rest1, ops, List.take, List.drop]
  constructor <;> (after_results_simp; assumption)

/-- Nor does the second normalization. -/
theorem norm2_holds (h : Holds a0 a1 a2 a3 a4 a5 a6 a7 a8 a9 U) : Holds a0 a1 a2 a3 a4 a5 a6 a7 a8 a9 (after norm2 U) := by
  obtain ⟨h1, h3, g0, g1, g2, g3, g4, g5, g6, g7, g8, g9⟩ := h
  dsimp only [norm2, rest4, rest3, rest2, rest1, ops, List.take, List.drop]
  constructor <;> (after_results_simp; assumption)

/-- The first convolution, matmul included, ends at `%50`. -/
theorem conv1_value (h : Holds a0 a1 a2 a3 a4 a5 a6 a7 a8 a9 U) :
    after conv1 U (Proc.devRef .tc main_v50) = Cert.ReferenceIdeal.Stages.val_main_v50 a0 a1 a2 a4 a5 := by
  obtain ⟨h1, h3, g0, g1, g2, g3, g4, g5, g6, g7, g8, g9⟩ := h
  dsimp only [conv1, rest1, ops, List.take, List.drop]
  after_results_simp
  after_results_inside
  rw [h1, h3, g0, g2, g4, g5]
  rfl

/-- The first normalization turns `%50` into `%59`. -/
theorem norm1_value (h : Holds a0 a1 a2 a3 a4 a5 a6 a7 a8 a9 U)
    (h50 : U (Proc.devRef .tc main_v50) = Cert.ReferenceIdeal.Stages.val_main_v50 a0 a1 a2 a4 a5) :
    after norm1 U (Proc.devRef .tc main_v59) = Cert.ReferenceIdeal.Stages.val_main_v59 a0 a1 a2 a4 a5 := by
  obtain ⟨h1, h3, g0, g1, g2, g3, g4, g5, g6, g7, g8, g9⟩ := h
  dsimp only [norm1, rest2, rest1, ops, List.take, List.drop]
  after_results_simp
  after_results_inside
  rw [g0, h50]
  rfl

/-- The second convolution, its matmul of `%59` included, ends at `%106`. -/
theorem conv2_value (h : Holds a0 a1 a2 a3 a4 a5 a6 a7 a8 a9 U)
    (h59 : U (Proc.devRef .tc main_v59) = Cert.ReferenceIdeal.Stages.val_main_v59 a0 a1 a2 a4 a5) :
    after conv2 U (Proc.devRef .tc main_v106) = Cert.ReferenceIdeal.Stages.val_main_v106 a0 a1 a2 a4 a5 a6 a7 := by
  obtain ⟨h1, h3, g0, g1, g2, g3, g4, g5, g6, g7, g8, g9⟩ := h
  dsimp only [conv2, rest3, rest2, rest1, ops, List.take, List.drop]
  after_results_simp
  after_results_inside
  rw [h1, h3, g2, g6, g7, h59]
  rfl

/-- The second convolution does not write the first block's result. -/
theorem conv2_keeps_first : after conv2 U (Proc.devRef .tc main_v59) = U (Proc.devRef .tc main_v59) := by
  dsimp only [conv2, rest3, rest2, rest1, ops, List.take, List.drop]
  after_results_simp

/-- The second normalization turns `%106` and `%59` into `%115`. -/
theorem norm2_value
    (h59 : U (Proc.devRef .tc main_v59) = Cert.ReferenceIdeal.Stages.val_main_v59 a0 a1 a2 a4 a5)
    (h106 : U (Proc.devRef .tc main_v106) = Cert.ReferenceIdeal.Stages.val_main_v106 a0 a1 a2 a4 a5 a6 a7) :
    after norm2 U (Proc.devRef .tc main_v115) = Cert.ReferenceIdeal.Stages.val_main_v115 a0 a1 a2 a4 a5 a6 a7 := by
  dsimp only [norm2, rest4, rest3, rest2, rest1, ops, List.take, List.drop]
  after_results_simp
  after_results_inside
  rw [h59, h106]
  rfl

end Cert.ReferenceIdeal.Blocks

end
-- ==== Proof.RefTail.lean ====
/-
  The reference's last pieces: the third convolution and the prediction.

  The third convolution multiplies the second block's result by the two-column weight matrix, gathers,
  scatter-adds and adds the bias: `%162`. Then the log-softmax over the two columns, `%163`, and, per predictor
  edge, minus the product of the two end points' rows: the result, `%183`.
-/
import proofs.«161216_j58317065945288_1_alg».proof.Proof.RefState

set_option maxRecDepth 16384
-- each lemma walks a line of up to 61 operations once per buffer it reads
set_option maxHeartbeats 4000000

noncomputable section

namespace Cert.ReferenceIdeal.Last

open Cert.ReferenceIdeal Cert.ReferenceIdeal.Ops Idealize.ShloMosaic Idealize.ShloMosaic.TcCoe Idealize.ShloMosaic.StableHlo

open Cert.Tactics

variable {F : FTy → Type} [FloatOps F]

variable (U : Valuation τ sig (Elt F))
variable (a0 : (⟨S100000x512, .f32⟩ : BufTy).Contents (Elt F)) (a1 : (⟨S2x150000, .i32⟩ : BufTy).Contents (Elt F))
  (a2 : (⟨S150000, .f32⟩ : BufTy).Contents (Elt F)) (a3 : (⟨S2x200000, .i32⟩ : BufTy).Contents (Elt F))
  (a4 : (⟨S512x512, .f32⟩ : BufTy).Contents (Elt F)) (a5 : (⟨S512, .f32⟩ : BufTy).Contents (Elt F))
  (a6 : (⟨S512x512, .f32⟩ : BufTy).Contents (Elt F)) (a7 : (⟨S512, .f32⟩ : BufTy).Contents (Elt F))
  (a8 : (⟨S512x2, .f32⟩ : BufTy).Contents (Elt F)) (a9 : (⟨S2, .f32⟩ : BufTy).Contents (Elt F))

/-- The third convolution writes neither the sliced rows nor an argument. -/
theorem conv3_holds (h : Holds a0 a1 a2 a3 a4 a5 a6 a7 a8 a9 U) : Holds a0 a1 a2 a3 a4 a5 a6 a7 a8 a9 (after conv3 U) := by
  obtain ⟨h1, h3, g0, g1, g2, g3, g4, g5, g6, g7, g8, g9⟩ := h
  dsimp only [conv3, rest5, rest4, rest3, rest2, rest1, ops, List.take, List.drop]
  constructor <;> (after_results_simp; assumption)

/-- Nor does the log-softmax. -/
theorem softmax_holds (h : Holds a0 a1 a2 a3 a4 a5 a6 a7 a8 a9 U) : Holds a0 a1 a2 a3 a4 a5 a6 a7 a8 a9 (after softmax U) := by
  obtain ⟨h1, h3, g0, g1, g2, g3, g4, g5, g6, g7, g8, g9⟩ := h
  dsimp only [softmax, rest6, rest5, rest4, rest3, rest2, rest1, ops, List.take, List.drop]
  constructor <;> (after_results_simp; assumption)

/-- Nor do the per-edge products. -/
theorem edges_holds (h : Holds a0 a1 a2 a3 a4 a5 a6 a7 a8 a9 U) : Holds a0 a1 a2 a3 a4 a5 a6 a7 a8 a9 (after edges U) := by
  obtain ⟨h1, h3, g0, g1, g2, g3, g4, g5, g6, g7, g8, g9⟩ := h
  dsimp only [edges, rest6, rest5, rest4, rest3, rest2, rest1, ops, List.take, List.drop]
  constructor <;> (after_results_simp; assumption)

/-- The third convolution, its matmul of `%115` included, ends at `%162`. -/
theorem conv3_value (h : Holds a0 a1 a2 a3 a4 a5 a6 a7 a8 a9 U)
    (h115 : U (Proc.devRef .tc main_v115) = Cert.ReferenceIdeal.Stages.val_main_v115 a0 a1 a2 a4 a5 a6 a7) :
    after conv3 U (Proc.devRef .tc main_v162) = Cert.ReferenceIdeal.Stages.val_main_v162 a0 a1 a2 a4 a5 a6 a7 a8 a9 := by
  obtain ⟨h1, h3, g0, g1, g2, g3, g4, g5, g6, g7, g8, g9⟩ := h
  dsimp only [conv3, rest5, rest4, rest3, rest2, rest1, ops, List.take, List.drop]
  after_results_simp
  after_results_inside
  rw [h1, h3, g2, g8, g9, h115]
  rfl

/-- The log-softmax turns `%162` into `%163`. Every intermediate of the outlined function sits under a transport to
    its buffer's type and back; those cancel. -/
theorem softmax_value
    (h162 : U (Proc.devRef .tc main_v162) = Cert.ReferenceIdeal.Stages.val_main_v162 a0 a1 a2 a4 a5 a6 a7 a8 a9) :
    after softmax U (Proc.devRef .tc main_v163) = Cert.ReferenceIdeal.Stages.val_main_v163 a0 a1 a2 a4 a5 a6 a7 a8 a9 := by
  dsimp only [softmax, rest6, rest5, rest4, rest3, rest2, rest1, ops, List.take, List.drop]
  after_results_simp
  rw [h162]
  simp only [ofBuf_toBuf]
  rfl

/-- The per-edge products turn `%163` into the result. -/
theorem edges_value (h : Holds a0 a1 a2 a3 a4 a5 a6 a7 a8 a9 U)
    (h163 : U (Proc.devRef .tc main_v163) = Cert.ReferenceIdeal.Stages.val_main_v163 a0 a1 a2 a4 a5 a6 a7 a8 a9) :
    after edges U (Proc.devRef .tc main_v183) = Cert.ReferenceIdeal.Stages.val_main_v183 a0 a1 a2 a3 a4 a5 a6 a7 a8 a9 := by
  obtain ⟨h1, h3, g0, g1, g2, g3, g4, g5, g6, g7, g8, g9⟩ := h
  dsimp only [edges, rest6, rest5, rest4, rest3, rest2, rest1, ops, List.take, List.drop]
  after_results_simp
  rw [g3, h163]
  rfl

end Cert.ReferenceIdeal.Last

end
-- ==== Proof.RefValue.lean ====
/-
  The reference's result, read off its line of operations.

  Run from any buffer contents `V`, the reference's 260 operations leave, in the result buffer, the stage
  `%183` of the ten argument arrays as `V` has them, and leave those arrays as they were: the pieces' value
  lemmas chained in order, each reading what the one before it left.
-/
import proofs.«161216_j58317065945288_1_alg».proof.Proof.RefBlocks
import proofs.«161216_j58317065945288_1_alg».proof.Proof.RefTail

noncomputable section

namespace Cert.ReferenceIdeal.Result

open Cert.ReferenceIdeal Cert.ReferenceIdeal.Ops Idealize.ShloMosaic Idealize.ShloMosaic.TcCoe Idealize.ShloMosaic.StableHlo

variable {F : FTy → Type} [FloatOps F]

/-- The result buffer after the whole line, and the arguments after it. -/
theorem value (V : Valuation τ sig (Elt F)) :
    after ops V (Proc.devRef .tc main_v183)
        = Cert.ReferenceIdeal.Stages.val_main_v183 (V (Proc.devRef .tc main_arg0)) (V (Proc.devRef .tc main_arg1)) (V (Proc.devRef .tc main_arg2))
            (V (Proc.devRef .tc main_arg3)) (V (Proc.devRef .tc main_arg4)) (V (Proc.devRef .tc main_arg5))
            (V (Proc.devRef .tc main_arg6)) (V (Proc.devRef .tc main_arg7)) (V (Proc.devRef .tc main_arg8))
            (V (Proc.devRef .tc main_arg9))
      ∧ Holds (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (after ops V) := by
  rw [ops_in_pieces]
  have s0 := holds_after_slices _ _ _ _ _ _ _ _ _ _ V rfl rfl rfl rfl rfl rfl rfl rfl rfl rfl
  have s1 := Blocks.conv1_holds _ _ _ _ _ _ _ _ _ _ _ s0
  have v50 := Blocks.conv1_value _ _ _ _ _ _ _ _ _ _ _ s0
  have s2 := Blocks.norm1_holds _ _ _ _ _ _ _ _ _ _ _ s1
  have v59 := Blocks.norm1_value _ _ _ _ _ _ _ _ _ _ _ s1 v50
  have s3 := Blocks.conv2_holds _ _ _ _ _ _ _ _ _ _ _ s2
  have v106 := Blocks.conv2_value _ _ _ _ _ _ _ _ _ _ _ s2 v59
  have k59 := (Blocks.conv2_keeps_first _).trans v59
  have s4 := Blocks.norm2_holds _ _ _ _ _ _ _ _ _ _ _ s3
  have v115 := Blocks.norm2_value _ _ _ _ _ _ _ _ k59 v106
  have s5 := Last.conv3_holds _ _ _ _ _ _ _ _ _ _ _ s4
  have v162 := Last.conv3_value _ _ _ _ _ _ _ _ _ _ _ s4 v115
  have s6 := Last.softmax_holds _ _ _ _ _ _ _ _ _ _ _ s5
  have v163 := Last.softmax_value _ _ _ _ _ _ _ _ _ _ v162
  have s7 := Last.edges_holds _ _ _ _ _ _ _ _ _ _ _ s6
  exact ⟨Last.edges_value _ _ _ _ _ _ _ _ _ _ _ s6 v163, s7⟩

end Cert.ReferenceIdeal.Result

end
-- ==== Proof.lean ====
/-
  The kernel program equals its reference on the extended reals.

  The program is a three-layer graph network: two residual blocks and an output layer, each a dense matmul
  followed by a gather / normalize / scatter-add graph convolution, and a log-softmax with per-edge products at
  the end. The kernel program computes each dense matmul in a Pallas region — 50 row blocks of 2000 rows, both
  operands cast to bf16, an f32 accumulator — and everything else on the host; the reference computes the
  matmuls with `dot_general` on the host. On the extended reals a cast between float formats is the identity
  and both matmuls are the sum `∑ k, x (r, k) * w (k, q)`, whatever the tiling, so the two programs compute the
  same function of their arguments, entry by entry; commutativity of nothing and finiteness of nothing is
  used, and the precondition is never opened.

  The three frames: the kernel programs' are the generated frame certificates; the reference's is its run over
  its line of host operations with the result dropped. `preserves` has no conjunct: the ideal pass rewrote
  nothing. `algebraic`: both runs end with the result buffer at the stage `%183` of the launch arguments
  (for the kernel program, through the three regions' products; for the reference, along its line), and the
  arguments agree.
-/
import proofs.«161216_j58317065945288_1_alg».proof.Defs
import proofs.«161216_j58317065945288_1_alg».proof.Proof.Gen.Kernel
import proofs.«161216_j58317065945288_1_alg».proof.Proof.Gen.Kernel.Frame
import proofs.«161216_j58317065945288_1_alg».proof.Proof.Gen.KernelIdeal
import proofs.«161216_j58317065945288_1_alg».proof.Proof.Gen.KernelIdeal.Frame
import proofs.«161216_j58317065945288_1_alg».proof.Proof.Gen.ReferenceIdeal
import proofs.«161216_j58317065945288_1_alg».proof.Proof.Gen.Pre_finite_inputs
import proofs.«161216_j58317065945288_1_alg».proof.Proof.KernelRun
import proofs.«161216_j58317065945288_1_alg».proof.Proof.Bridge
import proofs.«161216_j58317065945288_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run: every buffer ends at the fold of its operations, and the fold keeps the arguments. -/
theorem frame_reference_ideal : Cert.frame_ReferenceIdeal := fun m ρ _ =>
  (θ_run Cert.ReferenceIdeal.defs _ _).mono
    (fun r h c =>
      have k := (Cert.ReferenceIdeal.Result.value (F := Ideal) (StableHlo.launchContents m c)).2
      ⟨(h c _).trans k.arg0, (h c _).trans k.arg1, (h c _).trans k.arg2, (h c _).trans k.arg3, (h c _).trans k.arg4,
        (h c _).trans k.arg5, (h c _).trans k.arg6, (h c _).trans k.arg7, (h c _).trans k.arg8, (h c _).trans k.arg9⟩)
    (Cert.ReferenceIdeal.Ops.run_fold (F := Ideal) m ρ)

theorem preserves : Cert.preserves_Kernel_KernelIdeal := trivial

/-- Both programs end with the result buffer at the stage `%183` of the launch arguments, which agree. -/
theorem algebraic : Cert.algebraic_KernelIdeal_ReferenceIdeal := by
  intro m ρ m' ρ' _ hagree
  refine ⟨fun c => Cert.ReferenceIdeal.Stages.val_main_v183 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Bridge.result m ρ c), (h c).2⟩)
      (Cert.KernelIdeal.Result.run (F := Ideal) m ρ)
  · refine (θ_run Cert.ReferenceIdeal.defs _ _).mono (fun r h c => ?_) (Cert.ReferenceIdeal.Ops.run_fold (F := Ideal) m' ρ')
    have k := Cert.ReferenceIdeal.Result.value (F := Ideal) (StableHlo.launchContents m' c)
    have e := hagree c
    refine ⟨?_, (h c _).trans k.2.arg0, (h c _).trans k.2.arg1, (h c _).trans k.2.arg2, (h c _).trans k.2.arg3,
      (h c _).trans k.2.arg4, (h c _).trans k.2.arg5, (h c _).trans k.2.arg6, (h c _).trans k.2.arg7,
      (h c _).trans k.2.arg8, (h c _).trans k.2.arg9⟩
    refine (h c _).trans (k.1.trans ?_)
    have e0 : StableHlo.launchContents m' c (Proc.devRef .tc Cert.ReferenceIdeal.main_arg0) = m ((c.tc : Thread Cert.KernelIdeal.nD Cert.KernelIdeal.τ).loc Cert.KernelIdeal.main_arg0) := e.1
    have e1 : StableHlo.launchContents m' c (Proc.devRef .tc Cert.ReferenceIdeal.main_arg1) = m ((c.tc : Thread Cert.KernelIdeal.nD Cert.KernelIdeal.τ).loc Cert.KernelIdeal.main_arg1) := e.2.1
    have e2 : StableHlo.launchContents m' c (Proc.devRef .tc Cert.ReferenceIdeal.main_arg2) = m ((c.tc : Thread Cert.KernelIdeal.nD Cert.KernelIdeal.τ).loc Cert.KernelIdeal.main_arg2) := e.2.2.1
    have e3 : StableHlo.launchContents m' c (Proc.devRef .tc Cert.ReferenceIdeal.main_arg3) = m ((c.tc : Thread Cert.KernelIdeal.nD Cert.KernelIdeal.τ).loc Cert.KernelIdeal.main_arg3) := e.2.2.2.1
    have e4 : StableHlo.launchContents m' c (Proc.devRef .tc Cert.ReferenceIdeal.main_arg4) = m ((c.tc : Thread Cert.KernelIdeal.nD Cert.KernelIdeal.τ).loc Cert.KernelIdeal.main_arg4) := e.2.2.2.2.1
    have e5 : StableHlo.launchContents m' c (Proc.devRef .tc Cert.ReferenceIdeal.main_arg5) = m ((c.tc : Thread Cert.KernelIdeal.nD Cert.KernelIdeal.τ).loc Cert.KernelIdeal.main_arg5) := e.2.2.2.2.2.1
    have e6 : StableHlo.launchContents m' c (Proc.devRef .tc Cert.ReferenceIdeal.main_arg6) = m ((c.tc : Thread Cert.KernelIdeal.nD Cert.KernelIdeal.τ).loc Cert.KernelIdeal.main_arg6) := e.2.2.2.2.2.2.1
    have e7 : StableHlo.launchContents m' c (Proc.devRef .tc Cert.ReferenceIdeal.main_arg7) = m ((c.tc : Thread Cert.KernelIdeal.nD Cert.KernelIdeal.τ).loc Cert.KernelIdeal.main_arg7) := e.2.2.2.2.2.2.2.1
    have e8 : StableHlo.launchContents m' c (Proc.devRef .tc Cert.ReferenceIdeal.main_arg8) = m ((c.tc : Thread Cert.KernelIdeal.nD Cert.KernelIdeal.τ).loc Cert.KernelIdeal.main_arg8) := e.2.2.2.2.2.2.2.2.1
    have e9 : StableHlo.launchContents m' c (Proc.devRef .tc Cert.ReferenceIdeal.main_arg9) = m ((c.tc : Thread Cert.KernelIdeal.nD Cert.KernelIdeal.τ).loc Cert.KernelIdeal.main_arg9) := e.2.2.2.2.2.2.2.2.2
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
